-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x2048 : Shape := ⟨2, ![2048, 2048]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S2048x2048 .f32) (main_arg2 : FVec F S1024x1024 .f32) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S2048x2048 : Shape := ⟨2, ![2048, 2048]⟩
abbrev S1024x1024 : Shape := ⟨2, ![1024, 1024]⟩
abbrev S8192x1024 : Shape := ⟨2, ![8192, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x2048 : Shape := ⟨2, ![512, 2048]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩

abbrev nBuf : Space → Nat
  | .hbm => 29
  | .vmem => 30
  | .smem => 0
  | _ => 0

abbrev bufTy : (tb : Table) → Fin (tcTables nBuf tb) → BufTy
  | .hbm, ⟨0, _⟩ => ⟨S4x2048x1024, .f32⟩
  | .hbm, ⟨1, _⟩ => ⟨S2048x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S4x2048x16x64, .f32⟩
  | .hbm, ⟨15, _⟩ => ⟨S4x16x2048x64, .f32⟩
  | .hbm, ⟨16, _⟩ => ⟨S64x2048x64, .f32⟩
  | .hbm, ⟨17, _⟩ => ⟨S4x2048x16x64, .f32⟩
  | .hbm, ⟨18, _⟩ => ⟨S4x16x2048x64, .f32⟩
  | .hbm, ⟨19, _⟩ => ⟨S64x2048x64, .f32⟩
  | .hbm, ⟨20, _⟩ => ⟨S4x2048x16x64, .f32⟩
  | .hbm, ⟨21, _⟩ => ⟨S4x16x2048x64, .f32⟩
  | .hbm, ⟨22, _⟩ => ⟨S64x2048x64, .f32⟩
  | .hbm, ⟨23, _⟩ => ⟨S64x2048x64, .f32⟩
  | .hbm, ⟨24, _⟩ => ⟨S4x16x2048x64, .f32⟩
  | .hbm, ⟨25, _⟩ => ⟨S4x2048x16x64, .f32⟩
  | .hbm, ⟨26, _⟩ => ⟨S8192x1024, .f32⟩
  | .hbm, ⟨27, _⟩ => ⟨S8192x1024, .f32⟩
  | .hbm, ⟨28, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x512x64, .f32⟩
  | .local _ .vmem, ⟨16, _⟩ => ⟨S1x512x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S512x2048, .f32⟩
  | .local _ .vmem, ⟨22, _⟩ => ⟨S512x2048, .f32⟩
  | .local _ .vmem, ⟨23, _⟩ => ⟨S1x512x64, .f32⟩
  | .local _ .vmem, ⟨24, _⟩ => ⟨S1x512x64, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![64, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1x512x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S4x2048x1024_S8192x1024 : S4x2048x1024.ShapeCasts S8192x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x64 : S512x1.Broadcasts S512x64
  shapeCasts_S512x64_S1x512x64 : S512x64.ShapeCasts S1x512x64
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .f32 = 32 ∨ (Rect.block (s := S8192x1024) S1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S64x2048x64.size a
  hwx3_0 : ∀ i : grid3.Coords, EltTy.bits .f32 = 32 ∨ (Rect.block (s := S64x2048x64) S1x512x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S64x2048x64.size a
  hwx3_1 : ∀ i : grid3.Coords, EltTy.bits .f32 = 32 ∨ (Rect.block (s := S64x2048x64) S1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S64x2048x64.size a
  hwx3_2 : ∀ i : grid3.Coords, EltTy.bits .f32 = 32 ∨ (Rect.block (s := S64x2048x64) S1x2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2048.size a ≤ S2048x2048.size a
  hwx3_3 : ∀ i : grid3.Coords, EltTy.bits .f32 = 32 ∨ (Rect.block (s := S2048x2048) S512x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x64.size a ≤ S64x2048x64.size a
  hwx3_4 : ∀ i : grid3.Coords, EltTy.bits .f32 = 32 ∨ (Rect.block (s := S64x2048x64) S1x512x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .f32 = 32 ∨ (Rect.block (s := S8192x1024) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x1024.size a
  hwx4_2 : ∀ i : grid4.Coords, EltTy.bits .f32 = 32 ∨ (Rect.block (s := S8192x1024) S1024x1024.size (cc4_transform_2 i) (hinb4_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v17) S1x512x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v20) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S2048x2048 : Shape := ⟨2, ![2048, 2048]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S4x2048x16x64, .f32⟩
  | .hbm, ⟨8, _⟩ => ⟨S4x16x2048x64, .f32⟩
  | .hbm, ⟨9, _⟩ => ⟨S4x2048x1024, .f32⟩
  | .hbm, ⟨10, _⟩ => ⟨S4x2048x16x64, .f32⟩
  | .hbm, ⟨11, _⟩ => ⟨S4x16x2048x64, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x16x2048x2048, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S1x1x2048x2048, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S_, .f32⟩
  | .hbm, ⟨27, _⟩ => ⟨S4x16x2048x1, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x16x64, .f32⟩
  | .hbm, ⟨33, _⟩ => ⟨S4x2048x1024, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelRun.lean ====
/-
  The idealized kernel's @main, run: five pipelined regions among stretches of host operations. Every weakly fair
  execution terminates without a fault; the result buffer ends at what the fold of the segments leaves there
  (the last boundary's contents, read at the result), and the six argument arrays end as launched.
  What the fold leaves at the result is computed in the modules that import this one.
-/
import proofs.«119781_j18451179504495_1_alg».proof.Defs
import proofs.«119781_j18451179504495_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result read: the same launch over the same nine segments as the frame, the final state's
    result buffer read against the last thread state beside the arguments. -/
theorem run_result : θ_run defs (onTc (τ := τ) (main (F := F))) ⟨m, fun _ => 0, ρ⟩ (fun r => ∀ c : Dev nD,
      r.2.mem ((c.tc : Thread nD τ).loc main_v22) = W9 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v22 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.MatmulBlock.lean ====
/-
  The body of the four projection regions, read at an index: one 1024 × 1024 block of the left operand times the
  whole 1024 × 1024 right operand (both rounded to bf16 on the way in, which is the identity on extended reals),
  accumulated into zero. Entry (p, q) of what the body stores is ∑ k, a (p, k) · b (k, q).
-/
import proofs.«119781_j18451179504495_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- The contraction of the plain product: left index (p, k), right index (k, q). -/
theorem mm_lhs (i : S1024x1024.Idx) (q : dot_S1024x1024_S1024x1024_S1024x1024_1_0_0_1_n_n.contr.Idx) (k : Fin 1024)
    (hk : (q ⟨0, by decide⟩).val = k.val) :
    dot_S1024x1024_S1024x1024_S1024x1024_1_0_0_1_n_n.lhsIdx i q = ix2 (i 0) k := by
  funext a; apply Fin.ext
  match a with
  | ⟨0, _⟩ =>
    show (dot_S1024x1024_S1024x1024_S1024x1024_1_0_0_1_n_n.lhsIdx i q 0).val = (i 0).val
    unfold DotDims.lhsIdx
    rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
    rfl
  | ⟨1, _⟩ => exact (dot_S1024x1024_S1024x1024_S1024x1024_1_0_0_1_n_n.lhsIdx_val_of_single rfl i q).trans hk

theorem mm_rhs (i : S1024x1024.Idx) (q : dot_S1024x1024_S1024x1024_S1024x1024_1_0_0_1_n_n.contr.Idx) (k : Fin 1024)
    (hk : (q ⟨0, by decide⟩).val = k.val) :
    dot_S1024x1024_S1024x1024_S1024x1024_1_0_0_1_n_n.rhsIdx i q = ix2 k (i 1) := by
  funext a; apply Fin.ext
  match a with
  | ⟨0, _⟩ => exact (dot_S1024x1024_S1024x1024_S1024x1024_1_0_0_1_n_n.rhsIdx_val_of_single rfl i q).trans hk
  | ⟨1, _⟩ =>
    show (dot_S1024x1024_S1024x1024_S1024x1024_1_0_0_1_n_n.rhsIdx i q 1).val = (i 1).val
    unfold DotDims.rhsIdx
    rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
    rfl

/-- The body's value at entry (p, q): row p of the left block against column q of the right operand. -/
theorem mm_pay (a b : Vec Ideal S1024x1024 .f32) (p q : Fin 1024) :
    k0_pay1 (F := Ideal) a b (ix2 p q) = ∑ k : Fin 1024, a (ix2 p k) * b (ix2 k q) := by
  unfold k0_pay1
  simp only [shapeCast_self]
  refine (Ideal.matmul_constant_zero_apply dot_S1024x1024_S1024x1024_S1024x1024_1_0_0_1_n_n none _ _ (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  rw [mm_lhs _ _ k hk, mm_rhs _ _ k hk]
  rfl

/-- What the body leaves in the output block is that value (one store of the whole block). -/
theorem out0_2_eq (a b : Vec Ideal S1024x1024 .f32) : out0_2 (F := Ideal) a b = k0_pay1 (F := Ideal) a b := by
  unfold out0_2
  rw [View.canon_unit_zero hz2]
  simp only [View.ld_unit_zero (S := S1024x1024) hz2]

/-- The four projection bodies are one and the same text. -/
theorem out1_2_eq (a b : Vec Ideal S1024x1024 .f32) : out1_2 (F := Ideal) a b = k0_pay1 (F := Ideal) a b := by
  unfold out1_2
  rw [View.canon_unit_zero hz2]
  simp only [View.ld_unit_zero (S := S1024x1024) hz2]
  rfl
theorem out2_2_eq (a b : Vec Ideal S1024x1024 .f32) : out2_2 (F := Ideal) a b = k0_pay1 (F := Ideal) a b := by
  unfold out2_2
  rw [View.canon_unit_zero hz2]
  simp only [View.ld_unit_zero (S := S1024x1024) hz2]
  rfl
theorem out4_2_eq (a b : Vec Ideal S1024x1024 .f32) : out4_2 (F := Ideal) a b = k0_pay1 (F := Ideal) a b := by
  unfold out4_2
  rw [View.canon_unit_zero hz2]
  simp only [View.ld_unit_zero (S := S1024x1024) hz2]
  rfl

end Cert.KernelIdeal.Hand

end
-- ==== Proof.MatmulRegions.lean ====
/-
  The four projection regions, each read as ONE whole-array function: with A : [8192, 1024] and B : [1024, 1024] the
  arrays a region finds in its two input windows, its output array ends at the plain product A · B, entry (r, e) being
  ∑ k, A (r, k) · B (k, e). Each of the eight grid points multiplies rows 1024 t … 1024 t + 1023 of A by the whole of B
  and writes the same rows of the result; the eight row blocks tile the result.
-/
import proofs.«119781_j18451179504495_1_alg».proof.Proof.MatmulBlock

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The plain product of an 8192 × 1024 array with a 1024 × 1024 one. -/
def mmOf (A : S8192x1024.Idx → EReal) (B : S1024x1024.Idx → EReal) : S8192x1024.Idx → EReal :=
  fun i => ∑ k : Fin 1024, A (ix2 (i 0) k) * B (ix2 k (i 1))

/-- One block of the body's result is the same rows of the product: if the left block holds rows r · 1024 … of A and the
    right block is B, the body's entry j is the product's entry at row r · 1024 + j₀, column j₁. -/
theorem mm_block (A : S8192x1024.Idx → EReal) (B : S1024x1024.Idx → EReal) (a b : Vec Ideal S1024x1024 .f32) (r : Nat)
    (ha : ∀ (y : S1024x1024.Idx) (z : S8192x1024.Idx), (z 0).val = r * 1024 + (y 0).val → (z 1).val = (y 1).val → a y = A z)
    (hb : ∀ y : S1024x1024.Idx, b y = B y)
    (j : S1024x1024.Idx) (i : S8192x1024.Idx) (hi0 : (i 0).val = r * 1024 + (j 0).val) (hi1 : (i 1).val = (j 1).val) :
    k0_pay1 (F := Ideal) a b j = mmOf A B i := by
  obtain ⟨p, q, rfl⟩ : ∃ (p q : Fin 1024), j = ix2 p q := ⟨j 0, j 1, eq_ix2 j⟩
  rw [mm_pay]
  unfold mmOf
  refine Finset.sum_congr rfl fun k _ => ?_
  rw [ha (ix2 p k) (ix2 (i 0) k) hi0 rfl, hb]
  have hq : i 1 = q := Fin.ext hi1
  rw [hq]

variable (V : (c : Dev nD) → (b : Ref sig .tc) → Buf (Elt Ideal) ((c : Thread nD τ).loc b))

/-! ## Region 0: main_v5 = main_v0 · main_v1, eight row blocks of 1024 rows -/

/-- The printed index maps, decided over the eight grid points: the left operand and the result move one row block
    per point, the right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0 (c : Dev nD) (t : Fin cfg0.N) :
    (dat0 V c).flushed 2 t = ((cfg0.win 2).blk t).view.read (Elt Ideal) (mmOf (V c main_v0) (V c main_v1)) := by
  show (cfg0.win 2).cut (grid0.coords t) ((dat0 V c).after 2 t) = _
  rw [after0_2, out0_2_eq]
  obtain ⟨e0, e1, e2, e3, e4, e5⟩ := idx0 t
  funext j
  refine mm_block (V c main_v0) (V c main_v1) _ _ t.val ?_ ?_ j _ ?_ ?_
  · intro y z hz0 hz1
    show V c main_v0 (((cfg0.win 0).blk t).view.emb y) = V c main_v0 z
    refine congrArg (V c main_v0) (funext fun a => Fin.ext ?_)
    match a with
    | ⟨0, _⟩ => show win0_0.index t (0 : Fin 2) * 1024 + 1 * (y 0).val = (z 0).val; rw [e0, hz0]; omega
    | ⟨1, _⟩ => show win0_0.index t (1 : Fin 2) * 1024 + 1 * (y 1).val = (z 1).val; rw [e1, hz1]; omega
  · intro y
    show V c main_v1 (((cfg0.win 1).blk t).view.emb y) = V c main_v1 y
    refine congrArg (V c main_v1) (funext fun a => Fin.ext ?_)
    match a with
    | ⟨0, _⟩ => show win0_1.index t (0 : Fin 2) * 1024 + 1 * (y 0).val = (y 0).val; rw [e2]; omega
    | ⟨1, _⟩ => show win0_1.index t (1 : Fin 2) * 1024 + 1 * (y 1).val = (y 1).val; rw [e3]; omega
  · show win0_2.index t (0 : Fin 2) * 1024 + 1 * (j 0).val = t.val * 1024 + (j 0).val; rw [e4]; omega
  · show win0_2.index t (1 : Fin 2) * 1024 + 1 * (j 1).val = (j 1).val; rw [e5]; omega

/-- An index of the result is in point t's block iff each coordinate is in the block's range on its axis. -/
theorem mem_blk0 (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v5).slice (win0_2.rect t)).set ↔ _
  rw [View.set_slice_whole, Rect.mem_set_unit]
  exact Iff.rfl

/-- Row r of the result is written by point r / 1024. -/
theorem cover0 (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 8 := N_0
  refine ⟨⟨(i 0).val / 1024, by rw [hN]; omega⟩, flush0_2 _, ?_⟩
  rw [mem_blk0]
  obtain ⟨e0, e1, e2, e3, e4, e5⟩ := idx0 ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 1024 ≤ (i 1).val ∧ (i 1).val < win0_2.index _ (1 : Fin 2) * 1024 + 1024
    rw [e5]; omega

/-- The result array after the region: the product of the two arrays as the region finds them. -/
theorem final0 (c : Dev nD) : (dat0 V c).arrAt 2 cfg0.N = mmOf (V c main_v0) (V c main_v1) :=
  (dat0 V c).arrAt_eq_of_cover 2 (mmOf (V c main_v0) (V c main_v1)) (fun t _ => flushed0 V c t) cover0

/-! ## Region 1: main_v6 = main_v0 · main_v2, eight row blocks of 1024 rows -/

/-- The printed index maps, decided over the eight grid points: the left operand and the result move one row block
    per point, the right operand stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the two arrays as the region finds them. -/
theorem flushed1 (c : Dev nD) (t : Fin cfg1.N) :
    (dat1 V c).flushed 2 t = ((cfg1.win 2).blk t).view.read (Elt Ideal) (mmOf (V c main_v0) (V c main_v2)) := by
  show (cfg1.win 2).cut (grid1.coords t) ((dat1 V c).after 2 t) = _
  rw [after1_2, out1_2_eq]
  obtain ⟨e0, e1, e2, e3, e4, e5⟩ := idx1 t
  funext j
  refine mm_block (V c main_v0) (V c main_v2) _ _ t.val ?_ ?_ j _ ?_ ?_
  · intro y z hz0 hz1
    show V c main_v0 (((cfg1.win 0).blk t).view.emb y) = V c main_v0 z
    refine congrArg (V c main_v0) (funext fun a => Fin.ext ?_)
    match a with
    | ⟨0, _⟩ => show win1_0.index t (0 : Fin 2) * 1024 + 1 * (y 0).val = (z 0).val; rw [e0, hz0]; omega
    | ⟨1, _⟩ => show win1_0.index t (1 : Fin 2) * 1024 + 1 * (y 1).val = (z 1).val; rw [e1, hz1]; omega
  · intro y
    show V c main_v2 (((cfg1.win 1).blk t).view.emb y) = V c main_v2 y
    refine congrArg (V c main_v2) (funext fun a => Fin.ext ?_)
    match a with
    | ⟨0, _⟩ => show win1_1.index t (0 : Fin 2) * 1024 + 1 * (y 0).val = (y 0).val; rw [e2]; omega
    | ⟨1, _⟩ => show win1_1.index t (1 : Fin 2) * 1024 + 1 * (y 1).val = (y 1).val; rw [e3]; omega
  · show win1_2.index t (0 : Fin 2) * 1024 + 1 * (j 0).val = t.val * 1024 + (j 0).val; rw [e4]; omega
  · show win1_2.index t (1 : Fin 2) * 1024 + 1 * (j 1).val = (j 1).val; rw [e5]; omega

/-- An index of the result is in point t's block iff each coordinate is in the block's range on its axis. -/
theorem mem_blk1 (t : Fin cfg1.N) (i : S8192x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v6).slice (win1_2.rect t)).set ↔ _
  rw [View.set_slice_whole, Rect.mem_set_unit]
  exact Iff.rfl

/-- Row r of the result is written by point r / 1024. -/
theorem cover1 (i : S8192x1024.Idx) : ∃ t : Fin cfg1.N, (cfg1.win 2).flush t = true ∧ i ∈ ((cfg1.win 2).blk t).view.set := by
  have h0 : (i 0).val < 8192 := (i 0).isLt
  have h1 : (i 1).val < 1024 := (i 1).isLt
  have hN : cfg1.N = 8 := N_1
  refine ⟨⟨(i 0).val / 1024, by rw [hN]; omega⟩, flush1_2 _, ?_⟩
  rw [mem_blk1]
  obtain ⟨e0, e1, e2, e3, e4, e5⟩ := idx1 ⟨(i 0).val / 1024, by rw [hN]; omega⟩
  intro a
  match a with
  | ⟨0, _⟩ =>
    show win1_2.index _ (0 : Fin 2) * 1024 ≤ (i 0).val ∧ (i 0).val < win1_2.index _ (0 : Fin 2) * 1024 + 1024
    rw [e4]; show (i 0).val / 1024 * 1024 ≤ (i 0).val ∧ (i 0).val < (i 0).val / 1024 * 1024 + 1024; omega
  | ⟨1, _⟩ =>
    show win1_2.index _ (1 : Fin 2) * 1024 ≤ (i 1).val ∧ (i 1).val < win1_2.index _ (1 : Fin 2) * 1024 + 1024
    rw [e5]; omega

/-- The result array after the region: the product of the two arrays as the region finds them. -/
theorem final1 (c : Dev nD) : (dat1 V c).arrAt 2 cfg1.N = mmOf (V c main_v0) (V c main_v2) :=
  (dat1 V c).arrAt_eq_of_cover 2 (mmOf (V c main_v0) (V c main_v2)) (fun t _ => flushed1 V c t) cover1

/-! ## Region 2: main_v7 = main_v0 · main_v3, eight row blocks of 1024 rows -/

/-- The printed index maps, decided over the eight grid points: the left operand and the result move one row block
    per point, the right operand stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem flushed2 (c : Dev nD) (t : Fin cfg2.N) :
    (dat2 V c).flushed 2 t = ((cfg2.win 2).blk t).view.read (Elt Ideal) (mmOf (V c main_v0) (V c main_v3)) := by
  show (cfg2.win 2).cut (grid2.coords t) ((dat2 V c).after 2 t) = _
  rw [after2_2, out2_2_eq]
  obtain ⟨e0, e1, e2, e3, e4, e5⟩ := idx2 t
  funext j
  refine mm_block (V c main_v0) (V c main_v3) _ _ t.val ?_ ?_ j _ ?_ ?_
  · intro y z hz0 hz1
    show V c main_v0 (((cfg2.win 0).blk t).view.emb y) = V c main_v0 z
    refine congrArg (V c main_v0) (funext fun a => Fin.ext ?_)
    match a with
    | ⟨0, _⟩ => show win2_0.index t (0 : Fin 2) * 1024 + 1 * (y 0).val = (z 0).val; rw [e0, hz0]; omega
    | ⟨1, _⟩ => show win2_0.index t (1 : Fin 2) * 1024 + 1 * (y 1).val = (z 1).val; rw [e1, hz1]; omega
  · intro y
    show V c main_v3 (((cfg2.win 1).blk t).view.emb y) = V c main_v3 y
    refine congrArg (V c main_v3) (funext fun a => Fin.ext ?_)
    match a with
    | ⟨0, _⟩ => show win2_1.index t (0 : Fin 2) * 1024 + 1 * (y 0).val = (y 0).val; rw [e2]; omega
    | ⟨1, _⟩ => show win2_1.index t (1 : Fin 2) * 1024 + 1 * (y 1).val = (y 1).val; rw [e3]; omega
  · show win2_2.index t (0 : Fin 2) * 1024 + 1 * (j 0).val = t.val * 1024 + (j 0).val; rw [e4]; omega
  · show win2_2.index t (1 : Fin 2) * 1024 + 1 * (j 1).val = (j 1).val; rw [e5]; omega

/-- An index of the result is in point t's block iff each coordinate is in the block's range on its axis. -/
theorem mem_blk2 (t : Fin cfg2.N) (i : S8192x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v7).slice (win2_2.rect t)).set ↔ _
  rw [View.set_slice_whole, Rect.mem_set_unit]
  exact Iff.rfl

/-- Row r of the result is written by point r / 1024. -/
theorem cover2 (i : S8192x1024.Idx) : ∃ t : Fin cfg2.N, (cfg2.win 2).flush t = true ∧ i ∈ ((cfg2.win 2).blk t).view.set := by
  have h0 : (i 0).val < 8192 := (i 0).isLt
  have h1 : (i 1).val < 1024 := (i 1).isLt
  have hN : cfg2.N = 8 := N_2
  refine ⟨⟨(i 0).val / 1024, by rw [hN]; omega⟩, flush2_2 _, ?_⟩
  rw [mem_blk2]
  obtain ⟨e0, e1, e2, e3, e4, e5⟩ := idx2 ⟨(i 0).val / 1024, by rw [hN]; omega⟩
  intro a
  match a with
  | ⟨0, _⟩ =>
    show win2_2.index _ (0 : Fin 2) * 1024 ≤ (i 0).val ∧ (i 0).val < win2_2.index _ (0 : Fin 2) * 1024 + 1024
    rw [e4]; show (i 0).val / 1024 * 1024 ≤ (i 0).val ∧ (i 0).val < (i 0).val / 1024 * 1024 + 1024; omega
  | ⟨1, _⟩ =>
    show win2_2.index _ (1 : Fin 2) * 1024 ≤ (i 1).val ∧ (i 1).val < win2_2.index _ (1 : Fin 2) * 1024 + 1024
    rw [e5]; omega

/-- The result array after the region: the product of the two arrays as the region finds them. -/
theorem final2 (c : Dev nD) : (dat2 V c).arrAt 2 cfg2.N = mmOf (V c main_v0) (V c main_v3) :=
  (dat2 V c).arrAt_eq_of_cover 2 (mmOf (V c main_v0) (V c main_v3)) (fun t _ => flushed2 V c t) cover2

/-! ## Region 4: main_v21 = main_v20 · main_v4, eight row blocks of 1024 rows -/

/-- The printed index maps, decided over the eight grid points: the left operand and the result move one row block
    per point, the right operand stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the region finds them. -/
theorem flushed4 (c : Dev nD) (t : Fin cfg4.N) :
    (dat4 V c).flushed 2 t = ((cfg4.win 2).blk t).view.read (Elt Ideal) (mmOf (V c main_v20) (V c main_v4)) := by
  show (cfg4.win 2).cut (grid4.coords t) ((dat4 V c).after 2 t) = _
  rw [after4_2, out4_2_eq]
  obtain ⟨e0, e1, e2, e3, e4, e5⟩ := idx4 t
  funext j
  refine mm_block (V c main_v20) (V c main_v4) _ _ t.val ?_ ?_ j _ ?_ ?_
  · intro y z hz0 hz1
    show V c main_v20 (((cfg4.win 0).blk t).view.emb y) = V c main_v20 z
    refine congrArg (V c main_v20) (funext fun a => Fin.ext ?_)
    match a with
    | ⟨0, _⟩ => show win4_0.index t (0 : Fin 2) * 1024 + 1 * (y 0).val = (z 0).val; rw [e0, hz0]; omega
    | ⟨1, _⟩ => show win4_0.index t (1 : Fin 2) * 1024 + 1 * (y 1).val = (z 1).val; rw [e1, hz1]; omega
  · intro y
    show V c main_v4 (((cfg4.win 1).blk t).view.emb y) = V c main_v4 y
    refine congrArg (V c main_v4) (funext fun a => Fin.ext ?_)
    match a with
    | ⟨0, _⟩ => show win4_1.index t (0 : Fin 2) * 1024 + 1 * (y 0).val = (y 0).val; rw [e2]; omega
    | ⟨1, _⟩ => show win4_1.index t (1 : Fin 2) * 1024 + 1 * (y 1).val = (y 1).val; rw [e3]; omega
  · show win4_2.index t (0 : Fin 2) * 1024 + 1 * (j 0).val = t.val * 1024 + (j 0).val; rw [e4]; omega
  · show win4_2.index t (1 : Fin 2) * 1024 + 1 * (j 1).val = (j 1).val; rw [e5]; omega

/-- An index of the result is in point t's block iff each coordinate is in the block's range on its axis. -/
theorem mem_blk4 (t : Fin cfg4.N) (i : S8192x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v21).slice (win4_2.rect t)).set ↔ _
  rw [View.set_slice_whole, Rect.mem_set_unit]
  exact Iff.rfl

/-- Row r of the result is written by point r / 1024. -/
theorem cover4 (i : S8192x1024.Idx) : ∃ t : Fin cfg4.N, (cfg4.win 2).flush t = true ∧ i ∈ ((cfg4.win 2).blk t).view.set := by
  have h0 : (i 0).val < 8192 := (i 0).isLt
  have h1 : (i 1).val < 1024 := (i 1).isLt
  have hN : cfg4.N = 8 := N_4
  refine ⟨⟨(i 0).val / 1024, by rw [hN]; omega⟩, flush4_2 _, ?_⟩
  rw [mem_blk4]
  obtain ⟨e0, e1, e2, e3, e4, e5⟩ := idx4 ⟨(i 0).val / 1024, by rw [hN]; omega⟩
  intro a
  match a with
  | ⟨0, _⟩ =>
    show win4_2.index _ (0 : Fin 2) * 1024 ≤ (i 0).val ∧ (i 0).val < win4_2.index _ (0 : Fin 2) * 1024 + 1024
    rw [e4]; show (i 0).val / 1024 * 1024 ≤ (i 0).val ∧ (i 0).val < (i 0).val / 1024 * 1024 + 1024; omega
  | ⟨1, _⟩ =>
    show win4_2.index _ (1 : Fin 2) * 1024 ≤ (i 1).val ∧ (i 1).val < win4_2.index _ (1 : Fin 2) * 1024 + 1024
    rw [e5]; omega

/-- The result array after the region: the product of the two arrays as the region finds them. -/
theorem final4 (c : Dev nD) : (dat4 V c).arrAt 2 cfg4.N = mmOf (V c main_v20) (V c main_v4) :=
  (dat4 V c).arrAt_eq_of_cover 2 (mmOf (V c main_v20) (V c main_v4)) (fun t _ => flushed4 V c t) cover4

end Cert.KernelIdeal.Hand

end
-- ==== Proof.ChainA.lean ====
/-
  The first half of the kernel's @main as whole-array equations, at the ideal instance: what each buffer holds when
  the attention region is entered. The launch memory's x is flattened to rows [8192, 1024] and each weight transposed;
  three projection regions write the query, key and value rows (each the product of the flattened x with a transposed
  weight); nine host operations re-lay each of the three into heads [64, 2048, 64]. The mask reaches the attention
  region untouched, and so does the transposed output weight.
-/
import proofs.«119781_j18451179504495_1_alg».proof.Proof.MatmulRegions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

open Idealize.ShloMosaic.StableHlo

variable (m : (ℓ : Loc nD τ sig) → Buf (Elt Ideal) ℓ) (ρ : Dev nD → PrngReg)

/-! ## Before the first region: x flattened, the four weights transposed -/

theorem W1_v0 (c : Dev nD) : (W1 m ρ c (Proc.devRef .tc main_v0) : S8192x1024.Idx → EReal)
    = shapeCast S8192x1024 (m ((c : Thread nD τ).loc main_arg0)) shapeCasts_S4x2048x1024_S8192x1024 := by
  show StableHlo.after hostOps0 (W0 m ρ c) (Proc.devRef .tc main_v0) = _
  after_results; rfl
theorem W1_v1 (c : Dev nD) : (W1 m ρ c (Proc.devRef .tc main_v1) : S1024x1024.Idx → EReal)
    = transpose S1024x1024 [1, 0] (m ((c : Thread nD τ).loc main_arg2)) transposes_S1024x1024_S1024x1024_1_0 := by
  show StableHlo.after hostOps0 (W0 m ρ c) (Proc.devRef .tc main_v1) = _
  after_results
theorem W1_v2 (c : Dev nD) : (W1 m ρ c (Proc.devRef .tc main_v2) : S1024x1024.Idx → EReal)
    = transpose S1024x1024 [1, 0] (m ((c : Thread nD τ).loc main_arg3)) transposes_S1024x1024_S1024x1024_1_0 := by
  show StableHlo.after hostOps0 (W0 m ρ c) (Proc.devRef .tc main_v2) = _
  after_results
theorem W1_v3 (c : Dev nD) : (W1 m ρ c (Proc.devRef .tc main_v3) : S1024x1024.Idx → EReal)
    = transpose S1024x1024 [1, 0] (m ((c : Thread nD τ).loc main_arg4)) transposes_S1024x1024_S1024x1024_1_0 := by
  show StableHlo.after hostOps0 (W0 m ρ c) (Proc.devRef .tc main_v3) = _
  after_results
theorem W1_v4 (c : Dev nD) : (W1 m ρ c (Proc.devRef .tc main_v4) : S1024x1024.Idx → EReal)
    = transpose S1024x1024 [1, 0] (m ((c : Thread nD τ).loc main_arg5)) transposes_S1024x1024_S1024x1024_1_0 := by
  show StableHlo.after hostOps0 (W0 m ρ c) (Proc.devRef .tc main_v4) = _
  after_results

/-! ## The three projection regions -/

/-- The flattened x passes through each projection region unchanged (it is an input window's array). -/
theorem W2_v0 (c : Dev nD) : W2 m ρ c (Proc.devRef .tc main_v0) = W1 m ρ c (Proc.devRef .tc main_v0) :=
  (W2_arr m ρ c 0).trans (((dat0 (V1 m ρ) c).arrAt_in 0 rfl _).trans (A_eq0 (V1 m ρ) c 0))
theorem W3_v0 (c : Dev nD) : W3 m ρ c (Proc.devRef .tc main_v0) = W1 m ρ c (Proc.devRef .tc main_v0) :=
  ((W3_arr m ρ c 0).trans (((dat1 (V2 m ρ) c).arrAt_in 0 rfl _).trans (A_eq1 (V2 m ρ) c 0))).trans (W2_v0 m ρ c)

/-- The query rows. -/
theorem W2_v5 (c : Dev nD) : (W2 m ρ c (Proc.devRef .tc main_v5) : S8192x1024.Idx → EReal)
    = mmOf (W1 m ρ c (Proc.devRef .tc main_v0)) (W1 m ρ c (Proc.devRef .tc main_v1)) :=
  (W2_arr m ρ c 2).trans (final0 (V1 m ρ) c)

/-- The key rows. -/
theorem W3_v6 (c : Dev nD) : (W3 m ρ c (Proc.devRef .tc main_v6) : S8192x1024.Idx → EReal)
    = mmOf (W1 m ρ c (Proc.devRef .tc main_v0)) (W1 m ρ c (Proc.devRef .tc main_v2)) := by
  refine ((W3_arr m ρ c 2).trans (final1 (V2 m ρ) c)).trans ?_
  show mmOf (W2 m ρ c (Proc.devRef .tc main_v0)) (W2 m ρ c (Proc.devRef .tc main_v2)) = _
  rw [W2_v0, W2_of_ne m ρ c main_v2 (by decide)]

/-- The value rows. -/
theorem W4_v7 (c : Dev nD) : (W4 m ρ c (Proc.devRef .tc main_v7) : S8192x1024.Idx → EReal)
    = mmOf (W1 m ρ c (Proc.devRef .tc main_v0)) (W1 m ρ c (Proc.devRef .tc main_v3)) := by
  refine ((W4_arr m ρ c 2).trans (final2 (V3 m ρ) c)).trans ?_
  show mmOf (W3 m ρ c (Proc.devRef .tc main_v0)) (W3 m ρ c (Proc.devRef .tc main_v3)) = _
  rw [W3_v0, W3_of_ne m ρ c main_v3 (by decide), W2_of_ne m ρ c main_v3 (by decide)]

/-- The query and key rows are still there after the later projection regions. -/
theorem W4_v5 (c : Dev nD) : W4 m ρ c (Proc.devRef .tc main_v5) = W2 m ρ c (Proc.devRef .tc main_v5) :=
  (W4_of_ne m ρ c main_v5 (by decide)).trans (W3_of_ne m ρ c main_v5 (by decide))
theorem W4_v6 (c : Dev nD) : W4 m ρ c (Proc.devRef .tc main_v6) = W3 m ρ c (Proc.devRef .tc main_v6) :=
  W4_of_ne m ρ c main_v6 (by decide)

/-! ## Into heads -/

/-- Rows [8192, 1024] re-laid as heads [64, 2048, 64]: split into [4, 2048, 16, 64], swap the two middle axes, merge
    the two leading ones. -/
def toHeads (y : S8192x1024.Idx → EReal) : S64x2048x64.Idx → EReal :=
  shapeCast S64x2048x64 (transpose S4x16x2048x64 [0, 2, 1, 3] (shapeCast S4x2048x16x64 y shapeCasts_S8192x1024_S4x2048x16x64)
    transposes_S4x2048x16x64_S4x16x2048x64_0_2_1_3) shapeCasts_S4x16x2048x64_S64x2048x64

theorem W5_v10 (c : Dev nD) : (W5 m ρ c (Proc.devRef .tc main_v10) : S64x2048x64.Idx → EReal) = toHeads (W4 m ρ c (Proc.devRef .tc main_v5)) := by
  show StableHlo.after hostOps3 (W4 m ρ c) (Proc.devRef .tc main_v10) = _
  after_results; rfl
theorem W5_v13 (c : Dev nD) : (W5 m ρ c (Proc.devRef .tc main_v13) : S64x2048x64.Idx → EReal) = toHeads (W4 m ρ c (Proc.devRef .tc main_v6)) := by
  show StableHlo.after hostOps3 (W4 m ρ c) (Proc.devRef .tc main_v13) = _
  after_results; rfl
theorem W5_v16 (c : Dev nD) : (W5 m ρ c (Proc.devRef .tc main_v16) : S64x2048x64.Idx → EReal) = toHeads (W4 m ρ c (Proc.devRef .tc main_v7)) := by
  show StableHlo.after hostOps3 (W4 m ρ c) (Proc.devRef .tc main_v16) = _
  after_results; rfl

/-- The mask as the attention region finds it is the launch memory's. -/
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem _ _ (List.forall_iff_forall_mem.mp (by
      simp only [hostOps3, List.Forall, StableHlo.unary_writes, StableHlo.reshape_writes, Finset.mem_singleton]
      repeat' apply And.intro
      all_goals exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem _ _ (List.forall_iff_forall_mem.mp (by
      simp only [hostOps0, List.Forall, StableHlo.unary_writes, StableHlo.reshape_writes, Finset.mem_singleton]
      repeat' apply And.intro
      all_goals exact StableHlo.devRef_ne_of_ne (by decide)))
    _ = m ((c : Thread nD τ).loc main_arg1) := rfl

/-- The transposed output weight as the attention region finds it. -/
theorem W5_v4 (c : Dev nD) : W5 m ρ c (Proc.devRef .tc main_v4) = W1 m ρ c (Proc.devRef .tc main_v4) :=
  calc W5 m ρ c (Proc.devRef .tc main_v4)
    _ = W4 m ρ c (Proc.devRef .tc main_v4) := StableHlo.after_of_forall_not_mem _ _ (List.forall_iff_forall_mem.mp (by
      simp only [hostOps3, List.Forall, StableHlo.unary_writes, StableHlo.reshape_writes, Finset.mem_singleton]
      repeat' apply And.intro
      all_goals exact StableHlo.devRef_ne_of_ne (by decide)))
    _ = W3 m ρ c (Proc.devRef .tc main_v4) := W4_of_ne m ρ c main_v4 (by decide)
    _ = W2 m ρ c (Proc.devRef .tc main_v4) := W3_of_ne m ρ c main_v4 (by decide)
    _ = W1 m ρ c (Proc.devRef .tc main_v4) := W2_of_ne m ρ c main_v4 (by decide)

end Cert.KernelIdeal.Hand

end
-- ==== Proof.AttnBlock.lean ====
/-
  The body of the attention region, read at an index: for one (batch, head) pair it holds a block of 512 query rows,
  all 2048 key rows and value rows (64 lanes each) and the 512 × 2048 block of the mask. The weight of key n for query
  row r is exp((∑ l, q (r, l) · k (n, l)) · 2⁻³ + mask (r, n)); the body stores, at (r, j), the sum over n of the
  weight times v (n, j), divided by (the sum of the weights + ε). The roundings to bf16 on the way into the two
  products are the identity on extended reals, and both products and the row sum start from zero.
-/
import proofs.«119781_j18451179504495_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

theorem att_hz3 : (![0, 0, 0] : Fin 3 → Nat) = fun _ => 0 := funext fun a => by fin_cases a <;> rfl

theorem att_hz2 : (![0, 0] : Fin 2 → Nat) = fun _ => 0 := funext fun a => by fin_cases a <;> rfl

/-! ## The query rows against the key rows: both operands contracted on their lane axis -/

theorem att_qk_lhs (i : S512x2048.Idx) (c : dot_S512x64_S2048x64_S512x2048_1_1_0_0_n_n.contr.Idx) (l : Fin 64)
    (hl : (c ⟨0, by decide⟩).val = l.val) :
    dot_S512x64_S2048x64_S512x2048_1_1_0_0_n_n.lhsIdx i c = ix2 (i 0) l := by
  funext a; apply Fin.ext
  match a with
  | ⟨0, _⟩ =>
    show (dot_S512x64_S2048x64_S512x2048_1_1_0_0_n_n.lhsIdx i c 0).val = (i 0).val
    unfold DotDims.lhsIdx
    rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
    rfl
  | ⟨1, _⟩ => exact (dot_S512x64_S2048x64_S512x2048_1_1_0_0_n_n.lhsIdx_val_of_single rfl i c).trans hl

theorem att_qk_rhs (i : S512x2048.Idx) (c : dot_S512x64_S2048x64_S512x2048_1_1_0_0_n_n.contr.Idx) (l : Fin 64)
    (hl : (c ⟨0, by decide⟩).val = l.val) :
    dot_S512x64_S2048x64_S512x2048_1_1_0_0_n_n.rhsIdx i c = ix2 (i 1) l := by
  funext a; apply Fin.ext
  match a with
  | ⟨0, _⟩ =>
    show (dot_S512x64_S2048x64_S512x2048_1_1_0_0_n_n.rhsIdx i c 0).val = (i 1).val
    unfold DotDims.rhsIdx
    rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
    rfl
  | ⟨1, _⟩ => exact (dot_S512x64_S2048x64_S512x2048_1_1_0_0_n_n.rhsIdx_val_of_single rfl i c).trans hl

/-- Entry (r, n) of the product accumulated into zero: row r of the left operand against row n of the right. -/
theorem att_qk (a : FVec Ideal S512x64 .bf16) (b : FVec Ideal S2048x64 .bf16) (r : Fin 512) (n : Fin 2048) :
    matmul (F := Ideal) dot_S512x64_S2048x64_S512x2048_1_1_0_0_n_n none a b (constant (F := Ideal) S512x2048 .f32 0x00000000#32) (ix2 r n)
      = ∑ l : Fin 64, a (ix2 r l) * b (ix2 n l) := by
  refine (Ideal.matmul_constant_zero_apply dot_S512x64_S2048x64_S512x2048_1_1_0_0_n_n none a b (ix2 r n)).trans ?_
  rw [← Equiv.sum_comp (ValueIdx.contrEquiv1 dot_S512x64_S2048x64_S512x2048_1_1_0_0_n_n 64 rfl rfl).symm]
  refine Finset.sum_congr rfl fun l _ => ?_
  have hl := ValueIdx.contrEquiv1_symm_val dot_S512x64_S2048x64_S512x2048_1_1_0_0_n_n 64 rfl rfl l
  rw [att_qk_lhs _ _ l hl, att_qk_rhs _ _ l hl]
  rfl

/-! ## The weights against the value rows: the plain product -/

theorem att_pv_lhs (i : S512x64.Idx) (c : dot_S512x2048_S2048x64_S512x64_1_0_0_1_n_n.contr.Idx) (n : Fin 2048)
    (hn : (c ⟨0, by decide⟩).val = n.val) :
    dot_S512x2048_S2048x64_S512x64_1_0_0_1_n_n.lhsIdx i c = ix2 (i 0) n := by
  funext a; apply Fin.ext
  match a with
  | ⟨0, _⟩ =>
    show (dot_S512x2048_S2048x64_S512x64_1_0_0_1_n_n.lhsIdx i c 0).val = (i 0).val
    unfold DotDims.lhsIdx
    rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
    rfl
  | ⟨1, _⟩ => exact (dot_S512x2048_S2048x64_S512x64_1_0_0_1_n_n.lhsIdx_val_of_single rfl i c).trans hn

theorem att_pv_rhs (i : S512x64.Idx) (c : dot_S512x2048_S2048x64_S512x64_1_0_0_1_n_n.contr.Idx) (n : Fin 2048)
    (hn : (c ⟨0, by decide⟩).val = n.val) :
    dot_S512x2048_S2048x64_S512x64_1_0_0_1_n_n.rhsIdx i c = ix2 n (i 1) := by
  funext a; apply Fin.ext
  match a with
  | ⟨0, _⟩ => exact (dot_S512x2048_S2048x64_S512x64_1_0_0_1_n_n.rhsIdx_val_of_single rfl i c).trans hn
  | ⟨1, _⟩ =>
    show (dot_S512x2048_S2048x64_S512x64_1_0_0_1_n_n.rhsIdx i c 1).val = (i 1).val
    unfold DotDims.rhsIdx
    rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
    rfl

/-- Entry (r, j) of the product accumulated into zero: row r of the left operand against column j of the right. -/
theorem att_pv (p : FVec Ideal S512x2048 .bf16) (b : FVec Ideal S2048x64 .bf16) (r : Fin 512) (j : Fin 64) :
    matmul (F := Ideal) dot_S512x2048_S2048x64_S512x64_1_0_0_1_n_n none p b (constant (F := Ideal) S512x64 .f32 0x00000000#32) (ix2 r j)
      = ∑ n : Fin 2048, p (ix2 r n) * b (ix2 n j) := by
  refine (Ideal.matmul_constant_zero_apply dot_S512x2048_S2048x64_S512x64_1_0_0_1_n_n none p b (ix2 r j)).trans ?_
  rw [← Equiv.sum_comp (ValueIdx.contrEquiv1 dot_S512x2048_S2048x64_S512x64_1_0_0_1_n_n 2048 rfl rfl).symm]
  refine Finset.sum_congr rfl fun n _ => ?_
  have hn := ValueIdx.contrEquiv1_symm_val dot_S512x2048_S2048x64_S512x64_1_0_0_1_n_n 2048 rfl rfl n
  rw [att_pv_lhs _ _ n hn, att_pv_rhs _ _ n hn]
  rfl

/-! ## The row sum and the column forms -/

/-- The sum over the key axis, read at row r. -/
theorem att_rowsum (w : FVec Ideal S512x2048 .f32) (hacc : (0x00000000#32 : BitVec 32) = 0x00000000#32) (r : Fin 512) :
    multiReduction (F := Ideal) .add [1] S512 w 0x00000000#32 reduces_S512x2048_S512 (.inl rfl) hacc (ix1 r)
      = ∑ n : Fin 2048, w (ix2 r n) := by
  refine (Ideal.multiReduction_add_single w 0x00000000#32 reduces_S512x2048_S512 (.inl rfl) hacc (ix1 r)).trans ?_
  refine Finset.sum_congr rfl fun n _ => congrArg w ?_
  funext a; apply Fin.ext
  match a with
  | ⟨0, _⟩ => rfl
  | ⟨1, _⟩ => rfl

/-- A vector of 512 entries cast to a column reads, at (r, z), the entry r. -/
theorem att_col {α : Type} (x : S512.Idx → α) (h : S512.ShapeCasts S512x1) (r : Fin 512) (z : Fin 1) :
    shapeCast S512x1 x h (ix2 r z) = x (ix1 r) :=
  shapeCast_apply x h _ _ (by
    have hz : z.val = 0 := by omega
    rw [Shape.rowMajor_val_one, Shape.rowMajor_val_two]
    show r.val = r.val * 1 + z.val
    rw [hz, Nat.mul_one, Nat.add_zero])

/-- A column broadcast over 64 lanes reads, at (r, j), the column's entry r. -/
theorem att_bcol {α : Type} (x : S512x1.Idx → α) (h : S512x1.Broadcasts S512x64) (r : Fin 512) (j : Fin 64) :
    broadcastTo S512x64 x h (ix2 r j) = x (ix2 r (0 : Fin 1)) := by
  refine broadcastTo_apply x h (ix2 r j) (ix2 r (0 : Fin 1)) fun ax => ?_
  match ax with
  | ⟨0, _⟩ =>
    show r.val = if (512 : Nat) = 1 then 0 else r.val
    rw [if_neg (by decide)]
  | ⟨1, _⟩ => rfl

/-! ## The body at an index -/

/-- The un-normalised weight of key n for query row r within one (batch, head) block. -/
def attW (q : Vec Ideal S1x512x64 .f32) (k : Vec Ideal S1x2048x64 .f32) (mk : Vec Ideal S512x2048 .f32) (r : Fin 512) (n : Fin 2048) : EReal :=
  Ideal.exp ((∑ l : Fin 64, q (ix3 (0 : Fin 1) r l) * k (ix3 (0 : Fin 1) n l)) * Ideal.ofBits .f32 0x3E000000#32 + mk (ix2 r n))

/-- The matrix of weights as the body computes it: the scaled scores plus the mask, exponentiated. -/
def att_wmat (q : Vec Ideal S1x512x64 .f32) (k : Vec Ideal S1x2048x64 .f32) (mk : Vec Ideal S512x2048 .f32) : FVec Ideal S512x2048 .f32 :=
  exp (addf (mulf
    (matmul (F := Ideal) dot_S512x64_S2048x64_S512x2048_1_1_0_0_n_n none
      (truncf .bf16 (shapeCast S512x64 q shapeCasts_S1x512x64_S512x64) bitsLt_bf16_f32)
      (truncf .bf16 (shapeCast S2048x64 k shapeCasts_S1x2048x64_S2048x64) bitsLt_bf16_f32)
      (constant (F := Ideal) S512x2048 .f32 0x00000000#32))
    (broadcast S512x2048 (Scalar.ofBits (F := Ideal) .f32 0x3E000000#32))) mk)

theorem att_wmat_apply (q : Vec Ideal S1x512x64 .f32) (k : Vec Ideal S1x2048x64 .f32) (mk : Vec Ideal S512x2048 .f32) (r : Fin 512) (n : Fin 2048) :
    att_wmat q k mk (ix2 r n) = attW q k mk r n := by
  unfold att_wmat attW
  refine congrArg Ideal.exp (congrArg₂ (· + ·) (congrArg₂ (· * ·) ?_ rfl) rfl)
  refine (att_qk _ _ r n).trans (Finset.sum_congr rfl fun l _ => ?_)
  exact congrArg₂ (· * ·) (shapeCast_1ab_ab_apply q _ r l) (shapeCast_1ab_ab_apply k _ n l)

/-- The body's value at (u, r, j): the weighted sum of the value rows over the sum of the weights plus ε. -/
theorem attn_pay (q : Vec Ideal S1x512x64 .f32) (k v : Vec Ideal S1x2048x64 .f32) (mk : Vec Ideal S512x2048 .f32) (u : Fin 1) (r : Fin 512) (j : Fin 64) :
    k3_pay1 (F := Ideal) q k v mk (ix3 u r j) = Ideal.div (∑ n : Fin 2048, attW q k mk r n * v (ix3 (0 : Fin 1) n j)) ((∑ n : Fin 2048, attW q k mk r n) + Ideal.ofBits .f32 0x2EDBE6FF#32) := by
  unfold k3_pay1
  refine (shapeCast_ab_1ab_apply _ _ u r j).trans ?_
  refine congrArg₂ Ideal.div ?_ ?_
  · refine (att_pv _ _ r j).trans (Finset.sum_congr rfl fun n _ => ?_)
    exact congrArg₂ (· * ·) (att_wmat_apply q k mk r n) (shapeCast_1ab_ab_apply v _ n j)
  · refine (att_bcol _ _ r j).trans ?_
    refine congrArg₂ (· + ·) ?_ rfl
    refine (att_col _ _ r (0 : Fin 1)).trans ?_
    exact (att_rowsum _ rfl r).trans (Finset.sum_congr rfl fun n _ => att_wmat_apply q k mk r n)

/-- What the body leaves in the output block is that value (one store of the whole block). -/
theorem out3_4_eq (q : Vec Ideal S1x512x64 .f32) (k v : Vec Ideal S1x2048x64 .f32) (mk : Vec Ideal S512x2048 .f32) :
    out3_4 (F := Ideal) q k v mk = k3_pay1 (F := Ideal) q k v mk := by
  unfold out3_4
  rw [View.canon_unit_zero att_hz3]
  simp only [View.ld_unit_zero (S := S1x512x64) att_hz3, View.ld_unit_zero (S := S1x2048x64) att_hz3, View.ld_unit_zero (S := S512x2048) att_hz2]

end Cert.KernelIdeal.Hand

end
-- ==== Proof.AttnRegion.lean ====
/-
  The attention region read as ONE whole-array function. With Q, K, Vv : [64, 2048, 64] (one [2048, 64] slab per
  batch·head) and M : [2048, 2048] the arrays the region finds, its output ends at
      out (g, s, j) = (∑ n, w (g, s, n) · Vv (g, n, j)) / ((∑ n, w (g, s, n)) + ε),
      w (g, s, n) = exp ((∑ l, Q (g, s, l) · K (g, n, l)) · 2⁻³ + M (s, n)).
  The grid is 64 × 4: point (g, i) reads query rows 512 i … 512 i + 511 of slab g, the whole key and value slabs g and
  mask rows 512 i …, and writes the same rows of slab g of the output; the 256 blocks tile the output.
-/
import proofs.«119781_j18451179504495_1_alg».proof.Proof.AttnBlock

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The un-normalised weight of key n for query s in slab g. -/
def attnW (Q K : S64x2048x64.Idx → EReal) (M : S2048x2048.Idx → EReal) (g : Fin 64) (s n : Fin 2048) : EReal :=
  Ideal.exp ((∑ l : Fin 64, Q (ix3 g s l) * K (ix3 g n l)) * Ideal.ofBits .f32 0x3E000000#32 + M (ix2 s n))

/-- Attention over head-major arrays, normalised after the sum over keys. -/
def attnOf (Q K Vv : S64x2048x64.Idx → EReal) (M : S2048x2048.Idx → EReal) : S64x2048x64.Idx → EReal := fun i =>
  Ideal.div (∑ n : Fin 2048, attnW Q K M (i 0) (i 1) n * Vv (ix3 (i 0) n (i 2)))
    ((∑ n : Fin 2048, attnW Q K M (i 0) (i 1) n) + Ideal.ofBits .f32 0x2EDBE6FF#32)

/-- One block of the body's result is the same rows of `attnOf`: if the query block holds rows t₁ · 512 … of slab g, the
    key and value blocks are slab g, and the mask block holds rows t₁ · 512 … of the mask, then the body's entry
    (·, r, j) is `attnOf` at (g, t₁ · 512 + r, j). -/
theorem attn_block (Q K Vv : S64x2048x64.Idx → EReal) (M : S2048x2048.Idx → EReal)
    (q : Vec Ideal S1x512x64 .f32) (k v : Vec Ideal S1x2048x64 .f32) (mk : Vec Ideal S512x2048 .f32) (g : Fin 64) (t1 : Nat)
    (hq : ∀ (r : Fin 512) (l : Fin 64) (s : Fin 2048), s.val = t1 * 512 + r.val → q (ix3 (0 : Fin 1) r l) = Q (ix3 g s l))
    (hk : ∀ (n : Fin 2048) (l : Fin 64), k (ix3 (0 : Fin 1) n l) = K (ix3 g n l))
    (hv : ∀ (n : Fin 2048) (l : Fin 64), v (ix3 (0 : Fin 1) n l) = Vv (ix3 g n l))
    (hm : ∀ (r : Fin 512) (n : Fin 2048) (s : Fin 2048), s.val = t1 * 512 + r.val → mk (ix2 r n) = M (ix2 s n))
    (j : S1x512x64.Idx) (i : S64x2048x64.Idx) (hi0 : (i 0).val = g.val) (hi1 : (i 1).val = t1 * 512 + (j 1).val) (hi2 : (i 2).val = (j 2).val) :
    k3_pay1 (F := Ideal) q k v mk j = attnOf Q K Vv M i := by
  obtain ⟨u, r, l, rfl⟩ : ∃ (u : Fin 1) (r : Fin 512) (l : Fin 64), j = ix3 u r l := ⟨j 0, j 1, j 2, eq_ix3 j⟩
  rw [attn_pay]
  unfold attnOf
  have e0 : i 0 = g := Fin.ext hi0
  have e2 : i 2 = l := Fin.ext hi2
  have hw : ∀ n : Fin 2048, attW q k mk r n = attnW Q K M (i 0) (i 1) n := by
    intro n
    unfold attW attnW
    rw [hm r n (i 1) hi1, e0]
    refine congrArg (fun z => Ideal.exp (z * Ideal.ofBits .f32 0x3E000000#32 + M (ix2 (i 1) n))) ?_
    refine Finset.sum_congr rfl fun l' _ => ?_
    rw [hq r l' (i 1) hi1, hk]
  rw [e2]
  refine congrArg₂ Ideal.div ?_ ?_
  · refine Finset.sum_congr rfl fun n _ => ?_
    rw [hw n, hv, e0]
  · refine congrArg (· + Ideal.ofBits .f32 0x2EDBE6FF#32) ?_
    exact Finset.sum_congr rfl fun n _ => hw n

variable (V : (c : Dev nD) → (b : Ref sig .tc) → Buf (Elt Ideal) ((c : Thread nD τ).loc b))

/-- The printed index maps, decided over the 256 grid points (point t is slab t / 4, row block t % 4): the query and
    the output move with both, the key and value slabs with the slab only, the mask with the row block only. -/
theorem idx3 : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = 0 ∧ win3_2.index t (2 : Fin 3) = 0
    ∧ win3_3.index t (0 : Fin 2) = t.val % 4 ∧ win3_3.index t (1 : Fin 2) = 0
    ∧ win3_4.index t (0 : Fin 3) = t.val / 4 ∧ win3_4.index t (1 : Fin 3) = t.val % 4 ∧ win3_4.index t (2 : Fin 3) = 0 :=
  (by decide +kernel : ∀ t : Fin grid3.N, _)

/-- What point t writes back is block t of `attnOf` of the four arrays as the region finds them. -/
theorem flushed3 (c : Dev nD) (t : Fin cfg3.N) :
    (dat3 V c).flushed 4 t = ((cfg3.win 4).blk t).view.read (Elt Ideal) (attnOf (V c main_v10) (V c main_v13) (V c main_v16) (V c main_arg1)) := by
  show (cfg3.win 4).cut (grid3.coords t) ((dat3 V c).after 4 t) = _
  rw [after3_4, out3_4_eq]
  obtain ⟨a0, a1, a2, b0, b1, b2, c0, c1, c2, d0, d1, o0, o1, o2⟩ := idx3 t
  have hN : cfg3.N = 256 := N_3
  have ht : t.val < 256 := by have := t.isLt; omega
  funext j
  refine attn_block (V c main_v10) (V c main_v13) (V c main_v16) (V c main_arg1) _ _ _ _ ⟨t.val / 4, by omega⟩ (t.val % 4) ?_ ?_ ?_ ?_ j _ ?_ ?_ ?_
  · intro r l s hs
    show V c main_v10 (((cfg3.win 0).blk t).view.emb (ix3 (0 : Fin 1) r l)) = V c main_v10 (ix3 ⟨t.val / 4, by omega⟩ s l)
    refine congrArg (V c main_v10) (funext fun a => Fin.ext ?_)
    match a with
    | ⟨0, _⟩ => show win3_0.index t (0 : Fin 3) * 1 + 1 * 0 = t.val / 4; rw [a0]; omega
    | ⟨1, _⟩ => show win3_0.index t (1 : Fin 3) * 512 + 1 * r.val = s.val; rw [a1, hs]; omega
    | ⟨2, _⟩ => show win3_0.index t (2 : Fin 3) * 64 + 1 * l.val = l.val; rw [a2]; omega
  · intro n l
    show V c main_v13 (((cfg3.win 1).blk t).view.emb (ix3 (0 : Fin 1) n l)) = V c main_v13 (ix3 ⟨t.val / 4, by omega⟩ n l)
    refine congrArg (V c main_v13) (funext fun a => Fin.ext ?_)
    match a with
    | ⟨0, _⟩ => show win3_1.index t (0 : Fin 3) * 1 + 1 * 0 = t.val / 4; rw [b0]; omega
    | ⟨1, _⟩ => show win3_1.index t (1 : Fin 3) * 2048 + 1 * n.val = n.val; rw [b1]; omega
    | ⟨2, _⟩ => show win3_1.index t (2 : Fin 3) * 64 + 1 * l.val = l.val; rw [b2]; omega
  · intro n l
    show V c main_v16 (((cfg3.win 2).blk t).view.emb (ix3 (0 : Fin 1) n l)) = V c main_v16 (ix3 ⟨t.val / 4, by omega⟩ n l)
    refine congrArg (V c main_v16) (funext fun a => Fin.ext ?_)
    match a with
    | ⟨0, _⟩ => show win3_2.index t (0 : Fin 3) * 1 + 1 * 0 = t.val / 4; rw [c0]; omega
    | ⟨1, _⟩ => show win3_2.index t (1 : Fin 3) * 2048 + 1 * n.val = n.val; rw [c1]; omega
    | ⟨2, _⟩ => show win3_2.index t (2 : Fin 3) * 64 + 1 * l.val = l.val; rw [c2]; omega
  · intro r n s hs
    show V c main_arg1 (((cfg3.win 3).blk t).view.emb (ix2 r n)) = V c main_arg1 (ix2 s n)
    refine congrArg (V c main_arg1) (funext fun a => Fin.ext ?_)
    match a with
    | ⟨0, _⟩ => show win3_3.index t (0 : Fin 2) * 512 + 1 * r.val = s.val; rw [d0, hs]; omega
    | ⟨1, _⟩ => show win3_3.index t (1 : Fin 2) * 2048 + 1 * n.val = n.val; rw [d1]; omega
  · show win3_4.index t (0 : Fin 3) * 1 + 1 * (j 0).val = t.val / 4
    have hj : (j 0).val < 1 := (j 0).isLt
    rw [o0]; omega
  · show win3_4.index t (1 : Fin 3) * 512 + 1 * (j 1).val = t.val % 4 * 512 + (j 1).val; rw [o1]; omega
  · show win3_4.index t (2 : Fin 3) * 64 + 1 * (j 2).val = (j 2).val; rw [o2]; omega

/-- An index of the output is in point t's block iff each coordinate is in the block's range on its axis. -/
theorem mem_blk3 (t : Fin cfg3.N) (i : S64x2048x64.Idx) :
    i ∈ ((cfg3.win 4).blk t).view.set ↔ ∀ a : Fin 3, win3_4.index t a * S1x512x64.size a ≤ (i a).val ∧ (i a).val < win3_4.index t a * S1x512x64.size a + S1x512x64.size a := by
  show i ∈ ((View.whole main_v17).slice (win3_4.rect t)).set ↔ _
  rw [View.set_slice_whole, Rect.mem_set_unit]
  exact Iff.rfl

/-- Entry (g, s, ·) of the output is written by point 4 g + s / 512. -/
theorem cover3 (i : S64x2048x64.Idx) : ∃ t : Fin cfg3.N, (cfg3.win 4).flush t = true ∧ i ∈ ((cfg3.win 4).blk t).view.set := by
  have h0 : (i 0).val < 64 := (i 0).isLt
  have h1 : (i 1).val < 2048 := (i 1).isLt
  have h2 : (i 2).val < 64 := (i 2).isLt
  have hN : cfg3.N = 256 := N_3
  refine ⟨⟨(i 0).val * 4 + (i 1).val / 512, by rw [hN]; omega⟩, flush3_4 _, ?_⟩
  rw [mem_blk3]
  obtain ⟨a0, a1, a2, b0, b1, b2, c0, c1, c2, d0, d1, o0, o1, o2⟩ := idx3 ⟨(i 0).val * 4 + (i 1).val / 512, by rw [hN]; omega⟩
  intro a
  match a with
  | ⟨0, _⟩ =>
    show win3_4.index _ (0 : Fin 3) * 1 ≤ (i 0).val ∧ (i 0).val < win3_4.index _ (0 : Fin 3) * 1 + 1
    rw [o0]; show ((i 0).val * 4 + (i 1).val / 512) / 4 * 1 ≤ (i 0).val ∧ (i 0).val < ((i 0).val * 4 + (i 1).val / 512) / 4 * 1 + 1; omega
  | ⟨1, _⟩ =>
    show win3_4.index _ (1 : Fin 3) * 512 ≤ (i 1).val ∧ (i 1).val < win3_4.index _ (1 : Fin 3) * 512 + 512
    rw [o1]; show ((i 0).val * 4 + (i 1).val / 512) % 4 * 512 ≤ (i 1).val ∧ (i 1).val < ((i 0).val * 4 + (i 1).val / 512) % 4 * 512 + 512; omega
  | ⟨2, _⟩ =>
    show win3_4.index _ (2 : Fin 3) * 64 ≤ (i 2).val ∧ (i 2).val < win3_4.index _ (2 : Fin 3) * 64 + 64
    rw [o2]; omega

/-- The output array after the region. -/
theorem final3 (c : Dev nD) : (dat3 V c).arrAt 4 cfg3.N = attnOf (V c main_v10) (V c main_v13) (V c main_v16) (V c main_arg1) :=
  (dat3 V c).arrAt_eq_of_cover 4 (attnOf (V c main_v10) (V c main_v13) (V c main_v16) (V c main_arg1)) (fun t _ => flushed3 V c t) cover3

end Cert.KernelIdeal.Hand

end
-- ==== Proof.ChainB.lean ====
/-
  The second half of the kernel's @main as whole-array equations, at the ideal instance: the attention region's output
  from the three head arrays and the mask; three host operations re-lay it from heads [64, 2048, 64] back to rows
  [8192, 1024]; the output projection region multiplies the rows by the transposed output weight; one reshape gives the
  result [4, 2048, 1024].
-/
import proofs.«119781_j18451179504495_1_alg».proof.Proof.ChainA
import proofs.«119781_j18451179504495_1_alg».proof.Proof.AttnRegion

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

open Idealize.ShloMosaic.StableHlo

variable (m : (ℓ : Loc nD τ sig) → Buf (Elt Ideal) ℓ) (ρ : Dev nD → PrngReg)

/-- The attention region's output. -/
theorem W6_v17 (c : Dev nD) : (W6 m ρ c (Proc.devRef .tc main_v17) : S64x2048x64.Idx → EReal)
    = attnOf (W5 m ρ c (Proc.devRef .tc main_v10)) (W5 m ρ c (Proc.devRef .tc main_v13)) (W5 m ρ c (Proc.devRef .tc main_v16)) (W5 m ρ c (Proc.devRef .tc main_arg1)) :=
  (W6_arr m ρ c 4).trans (final3 (V5 m ρ) c)

/-- Heads [64, 2048, 64] re-laid as rows [8192, 1024]: split the leading axis into [4, 16], swap the two middle axes,
    merge [16, 64] into 1024 and [4, 2048] into 8192. -/
def fromHeads (o : S64x2048x64.Idx → EReal) : S8192x1024.Idx → EReal :=
  shapeCast S8192x1024 (transpose S4x2048x16x64 [0, 2, 1, 3] (shapeCast S4x16x2048x64 o shapeCasts_S64x2048x64_S4x16x2048x64)
    transposes_S4x16x2048x64_S4x2048x16x64_0_2_1_3) shapeCasts_S4x2048x16x64_S8192x1024

theorem W7_v20 (c : Dev nD) : (W7 m ρ c (Proc.devRef .tc main_v20) : S8192x1024.Idx → EReal) = fromHeads (W6 m ρ c (Proc.devRef .tc main_v17)) := by
  show StableHlo.after hostOps4 (W6 m ρ c) (Proc.devRef .tc main_v20) = _
  after_results; try rfl

/-- The transposed output weight as the last region finds it. -/
theorem W7_v4 (c : Dev nD) : W7 m ρ c (Proc.devRef .tc main_v4) = W1 m ρ c (Proc.devRef .tc main_v4) :=
  calc W7 m ρ c (Proc.devRef .tc main_v4)
    _ = W6 m ρ c (Proc.devRef .tc main_v4) := StableHlo.after_of_forall_not_mem _ _ (List.forall_iff_forall_mem.mp (by
      simp only [hostOps4, List.Forall, StableHlo.unary_writes, StableHlo.reshape_writes, Finset.mem_singleton]
      repeat' apply And.intro
      all_goals exact StableHlo.devRef_ne_of_ne (by decide)))
    _ = W5 m ρ c (Proc.devRef .tc main_v4) := W6_of_ne m ρ c main_v4 (by decide)
    _ = W1 m ρ c (Proc.devRef .tc main_v4) := W5_v4 m ρ c

/-- The output projection. -/
theorem W8_v21 (c : Dev nD) : (W8 m ρ c (Proc.devRef .tc main_v21) : S8192x1024.Idx → EReal)
    = mmOf (W7 m ρ c (Proc.devRef .tc main_v20)) (W7 m ρ c (Proc.devRef .tc main_v4)) :=
  (W8_arr m ρ c 2).trans (final4 (V7 m ρ) c)

/-- The result. -/
theorem W9_v22 (c : Dev nD) : (W9 m ρ c (Proc.devRef .tc main_v22) : S4x2048x1024.Idx → EReal)
    = shapeCast S4x2048x1024 (W8 m ρ c (Proc.devRef .tc main_v21)) shapeCasts_S8192x1024_S4x2048x1024 := by
  show StableHlo.after hostOps5 (W8 m ρ c) (Proc.devRef .tc main_v22) = _
  after_results; try rfl

end Cert.KernelIdeal.Hand

end
-- ==== Proof.Layout.lean ====
/-
  Five re-layouts of an array read at one index, over the literal shapes of multi-head attention
  (x : [4, 2048, 1024], rows : [8192, 1024], heads : [64, 2048, 64], a weight : [1024, 1024]).

  A reshape keeps the row-major position, so flattening (b, s) of [4, 2048] gives the row r = b·2048 + s, and
  splitting a feature e of 1024 = 16·64 gives head e / 64 and lane e % 64; a transpose permutes coordinates.
  Each statement takes the positions as equations between naturals, so that they are closed by linear arithmetic.
-/
import Idealize.ShloMosaic.Lib.Pipeline.Value
import Idealize.ShloMosaic.Lib.ValueIdx
import Idealize.ShloMosaic.Lib.ValueLayout

namespace Cert.Attn.Layout

open Idealize.ShloMosaic Idealize.ShloMosaic.ValueIdx

variable {α : Type}

/-- [4, 2048, 1024] read as [8192, 1024]: row b·2048 + s is position (b, s). -/
theorem flat_rows (x : (⟨3, ![4, 2048, 1024]⟩ : Shape).Idx → α) (h : (⟨3, ![4, 2048, 1024]⟩ : Shape).ShapeCasts ⟨2, ![8192, 1024]⟩) (b : Fin 4) (s : Fin 2048) (d : Fin 1024) (r : Fin 8192) (hr : r.val = b.val * 2048 + s.val) :
    shapeCast ⟨2, ![8192, 1024]⟩ x h (ix2 r d) = x (ix3 b s d) :=
  shapeCast_apply x h (ix2 r d) (ix3 b s d)
    (by rw [Shape.rowMajor_val_two, Shape.rowMajor_val_three]
        show (b.val * 2048 + s.val) * 1024 + d.val = r.val * 1024 + d.val
        rw [hr])

/-- [8192, 1024] read as [4, 2048, 1024]: the inverse. -/
theorem unflat_rows (z : (⟨2, ![8192, 1024]⟩ : Shape).Idx → α) (h : (⟨2, ![8192, 1024]⟩ : Shape).ShapeCasts ⟨3, ![4, 2048, 1024]⟩) (b : Fin 4) (s : Fin 2048) (e : Fin 1024) (r : Fin 8192) (hr : r.val = b.val * 2048 + s.val) :
    shapeCast ⟨3, ![4, 2048, 1024]⟩ z h (ix3 b s e) = z (ix2 r e) :=
  shapeCast_apply z h (ix3 b s e) (ix2 r e)
    (by rw [Shape.rowMajor_val_two, Shape.rowMajor_val_three]
        show r.val * 1024 + e.val = (b.val * 2048 + s.val) * 1024 + e.val
        rw [hr])

/-- The transpose of a square matrix. -/
theorem swap2 (W : (⟨2, ![1024, 1024]⟩ : Shape).Idx → α) (h : (⟨2, ![1024, 1024]⟩ : Shape).Transposes [1, 0] ⟨2, ![1024, 1024]⟩) (d e : Fin 1024) :
    transpose ⟨2, ![1024, 1024]⟩ [1, 0] W h (ix2 d e) = W (ix2 e d) :=
  transpose_apply [1, 0] W h (ix2 d e) (ix2 e d) (fun b => match b with | ⟨0, _⟩ => rfl | ⟨1, _⟩ => rfl)

/-- rows [8192,1024] → heads [64,2048,64]: reshape to [4,2048,16,64], swap the two middle axes, merge the two leading ones. -/
theorem to_heads (y : (⟨2, ![8192, 1024]⟩ : Shape).Idx → α) (h1 : (⟨2, ![8192, 1024]⟩ : Shape).ShapeCasts ⟨4, ![4, 2048, 16, 64]⟩)
    (h2 : (⟨4, ![4, 2048, 16, 64]⟩ : Shape).Transposes [0, 2, 1, 3] ⟨4, ![4, 16, 2048, 64]⟩) (h3 : (⟨4, ![4, 16, 2048, 64]⟩ : Shape).ShapeCasts ⟨3, ![64, 2048, 64]⟩)
    (b : Fin 4) (hh : Fin 16) (s : Fin 2048) (j : Fin 64) (g : Fin 64) (hg : g.val = b.val * 16 + hh.val) (r : Fin 8192) (hr : r.val = b.val * 2048 + s.val) (e : Fin 1024) (he : e.val = hh.val * 64 + j.val) :
    shapeCast ⟨3, ![64, 2048, 64]⟩ (transpose ⟨4, ![4, 16, 2048, 64]⟩ [0, 2, 1, 3] (shapeCast ⟨4, ![4, 2048, 16, 64]⟩ y h1) h2) h3 (ix3 g s j) = y (ix2 r e) := by
  -- merging (b, hh) into g: the same row-major position
  refine (shapeCast_apply _ h3 (ix3 g s j) (ix4 b hh s j)
    (by rw [Shape.rowMajor_val_three, Shape.rowMajor_val_four]
        show ((b.val * 16 + hh.val) * 2048 + s.val) * 64 + j.val = (g.val * 2048 + s.val) * 64 + j.val
        rw [hg])).trans ?_
  -- the swap of the two middle axes
  refine (transpose_apply [0, 2, 1, 3] _ h2 (ix4 b hh s j) (ix4 b s hh j)
    (fun a => match a with | ⟨0, _⟩ => rfl | ⟨1, _⟩ => rfl | ⟨2, _⟩ => rfl | ⟨3, _⟩ => rfl)).trans ?_
  -- splitting the row r into (b, s) and the feature e into (hh, j)
  exact shapeCast_apply y h1 (ix4 b s hh j) (ix2 r e)
    (by rw [Shape.rowMajor_val_two, Shape.rowMajor_val_four]
        show r.val * 1024 + e.val = ((b.val * 2048 + s.val) * 16 + hh.val) * 64 + j.val
        omega)

/-- heads [64,2048,64] → rows [8192,1024]: the inverse re-layout. -/
theorem from_heads (o : (⟨3, ![64, 2048, 64]⟩ : Shape).Idx → α) (h1 : (⟨3, ![64, 2048, 64]⟩ : Shape).ShapeCasts ⟨4, ![4, 16, 2048, 64]⟩)
    (h2 : (⟨4, ![4, 16, 2048, 64]⟩ : Shape).Transposes [0, 2, 1, 3] ⟨4, ![4, 2048, 16, 64]⟩) (h3 : (⟨4, ![4, 2048, 16, 64]⟩ : Shape).ShapeCasts ⟨2, ![8192, 1024]⟩)
    (b : Fin 4) (hh : Fin 16) (s : Fin 2048) (j : Fin 64) (g : Fin 64) (hg : g.val = b.val * 16 + hh.val) (r : Fin 8192) (hr : r.val = b.val * 2048 + s.val) (e : Fin 1024) (he : e.val = hh.val * 64 + j.val) :
    shapeCast ⟨2, ![8192, 1024]⟩ (transpose ⟨4, ![4, 2048, 16, 64]⟩ [0, 2, 1, 3] (shapeCast ⟨4, ![4, 16, 2048, 64]⟩ o h1) h2) h3 (ix2 r e) = o (ix3 g s j) := by
  -- splitting the row r into (b, s) and the feature e into (hh, j)
  refine (shapeCast_apply _ h3 (ix2 r e) (ix4 b s hh j)
    (by rw [Shape.rowMajor_val_two, Shape.rowMajor_val_four]
        show ((b.val * 2048 + s.val) * 16 + hh.val) * 64 + j.val = r.val * 1024 + e.val
        omega)).trans ?_
  -- the swap of the two middle axes
  refine (transpose_apply [0, 2, 1, 3] _ h2 (ix4 b s hh j) (ix4 b hh s j)
    (fun a => match a with | ⟨0, _⟩ => rfl | ⟨1, _⟩ => rfl | ⟨2, _⟩ => rfl | ⟨3, _⟩ => rfl)).trans ?_
  -- merging (b, hh) into g: the same row-major position
  exact shapeCast_apply o h1 (ix4 b hh s j) (ix3 g s j)
    (by rw [Shape.rowMajor_val_three, Shape.rowMajor_val_four]
        show (g.val * 2048 + s.val) * 64 + j.val = ((b.val * 16 + hh.val) * 2048 + s.val) * 64 + j.val
        rw [hg])

end Cert.Attn.Layout
-- ==== Proof.Spec.lean ====
/-
  Multi-head attention over x : [4, 2048, 1024] with 16 heads of width 64, as two index-by-index functions of
  the six argument arrays (x, the additive mask, and the weights of the query, key, value and output maps).

  Both apply the same four linear maps (`proj`: a row of x against a row of a weight), the same score
  (the query row against the key row of one head, scaled, plus the mask entry) and the same un-normalised
  weight (the exponential of the score). They differ in two places only:
  * the scale: a product with the pattern of 2⁻³ (`K`) against a quotient by the pattern of 8 (`R`);
  * the normalisation: `K` divides the weighted sum of value rows by (the sum of the weights + ε),
    `R` divides every weight by that denominator before summing.
  ε is one and the same f32 pattern on both sides.
-/
import Idealize.ShloMosaic.PureOps.Ideal
import Idealize.ShloMosaic.Lib.ValueIdx

noncomputable section

namespace Cert.Attn

open Idealize.ShloMosaic Idealize.ShloMosaic.ValueIdx

/-- x, and the result: [batch, position, feature]. -/
abbrev Sx : Shape := ⟨3, ![4, 2048, 1024]⟩
/-- The mask: [query position, key position]. -/
abbrev Sm : Shape := ⟨2, ![2048, 2048]⟩
/-- A weight: [output feature, input feature]. -/
abbrev Sw : Shape := ⟨2, ![1024, 1024]⟩

/-- The feature that lane `j` of head `h` occupies in a row of 1024 = 16 · 64. -/
def col (h : Fin 16) (j : Fin 64) : Fin 1024 := ⟨h.val * 64 + j.val, by have := h.isLt; have := j.isLt; omega⟩

/-- The head of a feature, and its lane. -/
def headOf (d : Fin 1024) : Fin 16 := ⟨d.val / 64, by have := d.isLt; omega⟩
def laneOf (d : Fin 1024) : Fin 64 := ⟨d.val % 64, by omega⟩

theorem col_headOf_laneOf (d : Fin 1024) : col (headOf d) (laneOf d) = d :=
  Fin.ext (by show d.val / 64 * 64 + d.val % 64 = d.val; omega)

theorem headOf_col (h : Fin 16) (j : Fin 64) : headOf (col h j) = h :=
  Fin.ext (by show (h.val * 64 + j.val) / 64 = h.val; have := j.isLt; omega)

theorem laneOf_col (h : Fin 16) (j : Fin 64) : laneOf (col h j) = j :=
  Fin.ext (by show (h.val * 64 + j.val) % 64 = j.val; have := j.isLt; omega)

/-- A linear map without bias: row (b, s) of x against row e of W. -/
def proj (x : Sx.Idx → EReal) (W : Sw.Idx → EReal) (b : Fin 4) (s : Fin 2048) (e : Fin 1024) : EReal :=
  ∑ d : Fin 1024, x (ix3 b s d) * W (ix2 e d)

/-- The query row at position s against the key row at position k, within head h. -/
def qk (x : Sx.Idx → EReal) (Wq Wk : Sw.Idx → EReal) (b : Fin 4) (h : Fin 16) (s k : Fin 2048) : EReal :=
  ∑ j : Fin 64, proj x Wq b s (col h j) * proj x Wk b k (col h j)

/-- The f32 patterns of 2⁻³, 8 and 10⁻¹⁰ (the last is not 10⁻¹⁰ exactly; it is never evaluated, only its sign matters). -/
def eighth : EReal := Ideal.ofBits .f32 0x3E000000#32
def eight : EReal := Ideal.ofBits .f32 0x41000000#32
def eps : EReal := Ideal.ofBits .f32 0x2EDBE6FF#32

/-- The un-normalised attention weight of key k for query s, with the scale as a product. -/
def wK (x : Sx.Idx → EReal) (mask : Sm.Idx → EReal) (Wq Wk : Sw.Idx → EReal) (b : Fin 4) (h : Fin 16) (s k : Fin 2048) : EReal :=
  Ideal.exp (qk x Wq Wk b h s k * eighth + mask (ix2 s k))

/-- The same with the scale as a quotient. -/
def wR (x : Sx.Idx → EReal) (mask : Sm.Idx → EReal) (Wq Wk : Sw.Idx → EReal) (b : Fin 4) (h : Fin 16) (s k : Fin 2048) : EReal :=
  Ideal.exp (Ideal.div (qk x Wq Wk b h s k) eight + mask (ix2 s k))

/-- One head's output, normalised after the sum over keys. -/
def headK (x : Sx.Idx → EReal) (mask : Sm.Idx → EReal) (Wq Wk Wv : Sw.Idx → EReal) (b : Fin 4) (h : Fin 16) (s : Fin 2048) (j : Fin 64) : EReal :=
  Ideal.div (∑ k : Fin 2048, wK x mask Wq Wk b h s k * proj x Wv b k (col h j))
    ((∑ k : Fin 2048, wK x mask Wq Wk b h s k) + eps)

/-- One head's output, every weight normalised before the sum over keys. -/
def headR (x : Sx.Idx → EReal) (mask : Sm.Idx → EReal) (Wq Wk Wv : Sw.Idx → EReal) (b : Fin 4) (h : Fin 16) (s : Fin 2048) (j : Fin 64) : EReal :=
  ∑ k : Fin 2048, Ideal.div (wR x mask Wq Wk b h s k) ((∑ k' : Fin 2048, wR x mask Wq Wk b h s k') + eps) * proj x Wv b k (col h j)

/-- The result, the heads concatenated along the feature axis and mapped by Wo: normalised after the sum. -/
def GK (x : Sx.Idx → EReal) (mask : Sm.Idx → EReal) (Wq Wk Wv Wo : Sw.Idx → EReal) : Sx.Idx → EReal := fun i =>
  ∑ d : Fin 1024, headK x mask Wq Wk Wv (i 0) (headOf d) (i 1) (laneOf d) * Wo (ix2 (i 2) d)

/-- The result, normalised before the sum. -/
def GR (x : Sx.Idx → EReal) (mask : Sm.Idx → EReal) (Wq Wk Wv Wo : Sw.Idx → EReal) : Sx.Idx → EReal := fun i =>
  ∑ d : Fin 1024, headR x mask Wq Wk Wv (i 0) (headOf d) (i 1) (laneOf d) * Wo (ix2 (i 2) d)

end Cert.Attn

end
-- ==== Proof.KernelIsSpec.lean ====
/-
  What the kernel's @main leaves in its result buffer is the specification `GK` of the six launch arrays, index by index.
  Row r = 2048 b + s of the flattened x against a transposed weight is `proj` at (b, s, ·); re-laid into heads, slab
  g = 16 b + h, row s, lane l holds `proj` at feature 64 h + l; the attention region's weights and output on those
  slabs are `wK` and `headK`; re-laid back to rows, feature d of row r holds head d / 64, lane d % 64; and the last
  projection sums those against the output weight.
-/
import proofs.«119781_j18451179504495_1_alg».proof.Proof.ChainB
import proofs.«119781_j18451179504495_1_alg».proof.Proof.Layout
import proofs.«119781_j18451179504495_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

open Cert.Attn

variable (m : (ℓ : Loc nD τ sig) → Buf (Elt Ideal) ℓ) (ρ : Dev nD → PrngReg)

/-- The six launch arrays of core c. -/
abbrev ax (c : Dev nD) : Sx.Idx → EReal := m ((c : Thread nD τ).loc main_arg0)
abbrev amask (c : Dev nD) : Sm.Idx → EReal := m ((c : Thread nD τ).loc main_arg1)
abbrev aq (c : Dev nD) : Sw.Idx → EReal := m ((c : Thread nD τ).loc main_arg2)
abbrev ak (c : Dev nD) : Sw.Idx → EReal := m ((c : Thread nD τ).loc main_arg3)
abbrev av (c : Dev nD) : Sw.Idx → EReal := m ((c : Thread nD τ).loc main_arg4)
abbrev ao (c : Dev nD) : Sw.Idx → EReal := m ((c : Thread nD τ).loc main_arg5)

/-- Row 2048 b + s of the flattened x is row (b, s) of x. -/
theorem rows_x (c : Dev nD) (b : Fin 4) (s : Fin 2048) (d : Fin 1024) (r : Fin 8192) (hr : r.val = b.val * 2048 + s.val) :
    (W1 m ρ c (Proc.devRef .tc main_v0) : S8192x1024.Idx → EReal) (ix2 r d) = ax m c (ix3 b s d) := by
  rw [W1_v0]; exact Layout.flat_rows _ _ b s d r hr

theorem wT1 (c : Dev nD) (d e : Fin 1024) : (W1 m ρ c (Proc.devRef .tc main_v1) : S1024x1024.Idx → EReal) (ix2 d e) = aq m c (ix2 e d) := by
  rw [W1_v1]; exact Layout.swap2 _ _ d e
theorem wT2 (c : Dev nD) (d e : Fin 1024) : (W1 m ρ c (Proc.devRef .tc main_v2) : S1024x1024.Idx → EReal) (ix2 d e) = ak m c (ix2 e d) := by
  rw [W1_v2]; exact Layout.swap2 _ _ d e
theorem wT3 (c : Dev nD) (d e : Fin 1024) : (W1 m ρ c (Proc.devRef .tc main_v3) : S1024x1024.Idx → EReal) (ix2 d e) = av m c (ix2 e d) := by
  rw [W1_v3]; exact Layout.swap2 _ _ d e
theorem wT4 (c : Dev nD) (d e : Fin 1024) : (W1 m ρ c (Proc.devRef .tc main_v4) : S1024x1024.Idx → EReal) (ix2 d e) = ao m c (ix2 e d) := by
  rw [W1_v4]; exact Layout.swap2 _ _ d e

/-- The flattened x times a transposed weight, at row 2048 b + s, is the linear map at (b, s, ·). -/
theorem proj_rows (c : Dev nD) (WT : S1024x1024.Idx → EReal) (W : Sw.Idx → EReal) (hW : ∀ d e : Fin 1024, WT (ix2 d e) = W (ix2 e d))
    (b : Fin 4) (s : Fin 2048) (e : Fin 1024) (r : Fin 8192) (hr : r.val = b.val * 2048 + s.val) :
    mmOf (W1 m ρ c (Proc.devRef .tc main_v0)) WT (ix2 r e) = proj (ax m c) W b s e := by
  unfold mmOf proj
  refine Finset.sum_congr rfl fun k _ => ?_
  exact congrArg₂ (· * ·) (rows_x m ρ c b s k r hr) (hW k e)

/-- The query, key and value slabs: slab 16 b + h, row s, lane l is the linear map at feature 64 h + l. -/
theorem Qh (c : Dev nD) (b : Fin 4) (h : Fin 16) (s : Fin 2048) (l : Fin 64) (g : Fin 64) (hg : g.val = b.val * 16 + h.val) :
    (W5 m ρ c (Proc.devRef .tc main_v10) : S64x2048x64.Idx → EReal) (ix3 g s l) = proj (ax m c) (aq m c) b s (col h l) := by
  rw [W5_v10, W4_v5, W2_v5]
  unfold toHeads
  have hb : b.val < 4 := b.isLt
  have hs : s.val < 2048 := s.isLt
  rw [Layout.to_heads _ _ _ _ b h s l g hg ⟨b.val * 2048 + s.val, by omega⟩ rfl (col h l) rfl]
  exact proj_rows m ρ c _ _ (wT1 m ρ c) b s (col h l) _ rfl
theorem Kh (c : Dev nD) (b : Fin 4) (h : Fin 16) (s : Fin 2048) (l : Fin 64) (g : Fin 64) (hg : g.val = b.val * 16 + h.val) :
    (W5 m ρ c (Proc.devRef .tc main_v13) : S64x2048x64.Idx → EReal) (ix3 g s l) = proj (ax m c) (ak m c) b s (col h l) := by
  rw [W5_v13, W4_v6, W3_v6]
  unfold toHeads
  have hb : b.val < 4 := b.isLt
  have hs : s.val < 2048 := s.isLt
  rw [Layout.to_heads _ _ _ _ b h s l g hg ⟨b.val * 2048 + s.val, by omega⟩ rfl (col h l) rfl]
  exact proj_rows m ρ c _ _ (wT2 m ρ c) b s (col h l) _ rfl
theorem Vh (c : Dev nD) (b : Fin 4) (h : Fin 16) (s : Fin 2048) (l : Fin 64) (g : Fin 64) (hg : g.val = b.val * 16 + h.val) :
    (W5 m ρ c (Proc.devRef .tc main_v16) : S64x2048x64.Idx → EReal) (ix3 g s l) = proj (ax m c) (av m c) b s (col h l) := by
  rw [W5_v16, W4_v7]
  unfold toHeads
  have hb : b.val < 4 := b.isLt
  have hs : s.val < 2048 := s.isLt
  rw [Layout.to_heads _ _ _ _ b h s l g hg ⟨b.val * 2048 + s.val, by omega⟩ rfl (col h l) rfl]
  exact proj_rows m ρ c _ _ (wT3 m ρ c) b s (col h l) _ rfl

/-- The attention region's weights on those slabs are the specification's. -/
theorem attnW_eq (c : Dev nD) (b : Fin 4) (h : Fin 16) (s n : Fin 2048) (g : Fin 64) (hg : g.val = b.val * 16 + h.val) :
    attnW (W5 m ρ c (Proc.devRef .tc main_v10)) (W5 m ρ c (Proc.devRef .tc main_v13)) (W5 m ρ c (Proc.devRef .tc main_arg1)) g s n
      = wK (ax m c) (amask m c) (aq m c) (ak m c) b h s n := by
  unfold attnW wK qk eighth
  rw [W5_arg1]
  refine congrArg (fun z => Ideal.exp (z * Ideal.ofBits .f32 0x3E000000#32 + amask m c (ix2 s n))) ?_
  refine Finset.sum_congr rfl fun l _ => ?_
  rw [Qh m ρ c b h s l g hg, Kh m ρ c b h n l g hg]

/-- The attention region's output on those slabs is the specification's head. -/
theorem head_eq (c : Dev nD) (b : Fin 4) (h : Fin 16) (s : Fin 2048) (j : Fin 64) (g : Fin 64) (hg : g.val = b.val * 16 + h.val) :
    attnOf (W5 m ρ c (Proc.devRef .tc main_v10)) (W5 m ρ c (Proc.devRef .tc main_v13)) (W5 m ρ c (Proc.devRef .tc main_v16)) (W5 m ρ c (Proc.devRef .tc main_arg1)) (ix3 g s j)
      = headK (ax m c) (amask m c) (aq m c) (ak m c) (av m c) b h s j := by
  unfold attnOf headK eps
  refine congrArg₂ Ideal.div ?_ ?_
  · refine Finset.sum_congr rfl fun n _ => ?_
    show attnW _ _ _ g s n * (W5 m ρ c (Proc.devRef .tc main_v16) : S64x2048x64.Idx → EReal) (ix3 g n j) = _
    rw [attnW_eq m ρ c b h s n g hg, Vh m ρ c b h n j g hg]
  · refine congrArg (· + Ideal.ofBits .f32 0x2EDBE6FF#32) ?_
    exact Finset.sum_congr rfl fun n _ => attnW_eq m ρ c b h s n g hg

/-- Row 2048 b + s of the last projection: the heads laid side by side against row e of the output weight. -/
theorem out_rows (c : Dev nD) (b : Fin 4) (s : Fin 2048) (e : Fin 1024) (r : Fin 8192) (hr : r.val = b.val * 2048 + s.val) :
    mmOf (W7 m ρ c (Proc.devRef .tc main_v20)) (W7 m ρ c (Proc.devRef .tc main_v4)) (ix2 r e)
      = GK (ax m c) (amask m c) (aq m c) (ak m c) (av m c) (ao m c) (ix3 b s e) := by
  unfold mmOf GK
  refine Finset.sum_congr rfl fun d _ => ?_
  have hb : b.val < 4 := b.isLt
  have hd : d.val < 1024 := d.isLt
  have hh : (headOf d).val = d.val / 64 := rfl
  refine congrArg₂ (· * ·) ?_ ?_
  · show ((W7 m ρ c (Proc.devRef .tc main_v20) : S8192x1024.Idx → EReal) (ix2 r d) : EReal)
      = headK (ax m c) (amask m c) (aq m c) (ak m c) (av m c) b (headOf d) s (laneOf d)
    rw [W7_v20]
    unfold fromHeads
    rw [Layout.from_heads _ _ _ _ b (headOf d) s (laneOf d) ⟨b.val * 16 + (headOf d).val, by omega⟩ rfl r hr d
      (by show d.val = d.val / 64 * 64 + d.val % 64; omega)]
    rw [W6_v17]
    exact head_eq m ρ c b (headOf d) s (laneOf d) _ rfl
  · show ((W7 m ρ c (Proc.devRef .tc main_v4) : S1024x1024.Idx → EReal) (ix2 d e) : EReal) = ao m c (ix2 e d)
    rw [W7_v4]
    exact wT4 m ρ c d e

/-- THE KERNEL'S VALUE: the result buffer after the run is `GK` of the launch arrays. -/
theorem result_eq (c : Dev nD) : (W9 m ρ c (Proc.devRef .tc main_v22) : S4x2048x1024.Idx → EReal)
    = GK (ax m c) (amask m c) (aq m c) (ak m c) (av m c) (ao m c) := by
  funext i
  obtain ⟨b, s, e, rfl⟩ : ∃ (b : Fin 4) (s : Fin 2048) (e : Fin 1024), i = ix3 b s e := ⟨i 0, i 1, i 2, eq_ix3 i⟩
  have hb : b.val < 4 := b.isLt
  have hs : s.val < 2048 := s.isLt
  rw [W9_v22, Layout.unflat_rows _ _ b s e ⟨b.val * 2048 + s.val, by omega⟩ rfl, W8_v21]
  exact out_rows m ρ c b s e _ rfl

end Cert.KernelIdeal.Hand

end
-- ==== Proof.RefIsSpec.lean ====
/-
  The reference program, read one operation at a time, is the specification `GR`: the result at [batch, position,
  feature] is the sum over the 1024 concatenated head features d of one head's output (head d / 64, lane d mod 64)
  times the output weight, where a head's output sums, over the 2048 keys, the weight exp(q·k / 8 + mask) divided by
  (the sum of the weights + ε), times the value row.

  The steps follow the program: the three linear maps are a row of x against a row of a weight; the split of a
  row of 1024 features into 16 heads of 64 lanes is row-major (feature h · 64 + j), followed by the exchange of
  the position axis and the head axis; the score contracts the 64 lanes; the mask is broadcast over batch and head;
  the denominator is broadcast over the keys; the normalised weights contract the 2048 keys against the value rows; the
  heads are laid side by side again; the output map contracts the 1024 features.
-/
import proofs.«119781_j18451179504495_1_alg».proof.Proof.Gen.ReferenceIdeal.Read
import proofs.«119781_j18451179504495_1_alg».proof.Proof.Spec

noncomputable section

namespace Cert.Attn.Ref

open Cert.ReferenceIdeal Cert.ReferenceIdeal.Read Idealize.ShloMosaic Idealize.ShloMosaic.ValueIdx Cert.Attn

/-! ## The three linear maps (operations 0, 3, 6) at an index

Each is a row of x against a row of a weight: the contraction runs over the 1024 input features. -/

theorem lidx_v0 (b : Fin 4) (s : Fin 2048) (e k : Fin 1024) : lidx_main_v0 (ix3 b s e) k = ix3 b s k :=
  funext fun a => by match a with | ⟨0, _⟩ => rfl | ⟨1, _⟩ => rfl | ⟨2, _⟩ => rfl

theorem ridx_v0 (b : Fin 4) (s : Fin 2048) (e k : Fin 1024) : ridx_main_v0 (ix3 b s e) k = ix2 e k :=
  funext fun a => by match a with | ⟨0, _⟩ => rfl | ⟨1, _⟩ => rfl

theorem v0_eq (x : Sx.Idx → EReal) (W : Sw.Idx → EReal) (b : Fin 4) (s : Fin 2048) (e : Fin 1024) :
    val_main_v0 (F := Ideal) x W (ix3 b s e) = proj x W b s e := by
  rw [val_main_v0_apply]
  exact Finset.sum_congr rfl fun k _ => by rw [lidx_v0, ridx_v0]

theorem v3_eq (x : Sx.Idx → EReal) (W : Sw.Idx → EReal) (b : Fin 4) (s : Fin 2048) (e : Fin 1024) :
    val_main_v3 (F := Ideal) x W (ix3 b s e) = proj x W b s e := v0_eq x W b s e

theorem v6_eq (x : Sx.Idx → EReal) (W : Sw.Idx → EReal) (b : Fin 4) (s : Fin 2048) (e : Fin 1024) :
    val_main_v6 (F := Ideal) x W (ix3 b s e) = proj x W b s e := v0_eq x W b s e

/-! ## The heads layout (operations 1–2, 4–5, 7–8)

Splitting a row of 1024 features into 16 heads of 64 lanes is row-major: feature d = h · 64 + j. The transposition
then exchanges the position axis and the head axis. -/

theorem idx_v1 (b : Fin 4) (s : Fin 2048) (h : Fin 16) (j : Fin 64) :
    idx_main_v1 (ix4 b s h j) = ix3 b s (col h j) :=
  funext fun a => by
    have hb := b.isLt; have hs := s.isLt; have hh := h.isLt; have hj := j.isLt
    match a with
    | ⟨0, _⟩ => exact Fin.ext (by show (((b.val * 2048 + s.val) * 16 + h.val) * 64 + j.val) / 2097152 = b.val; omega)
    | ⟨1, _⟩ => exact Fin.ext (by show (((b.val * 2048 + s.val) * 16 + h.val) * 64 + j.val) / 1024 % 2048 = s.val; omega)
    | ⟨2, _⟩ => exact Fin.ext (by show (((b.val * 2048 + s.val) * 16 + h.val) * 64 + j.val) % 1024 = h.val * 64 + j.val; omega)

theorem idx_v2 (b : Fin 4) (h : Fin 16) (s : Fin 2048) (j : Fin 64) :
    idx_main_v2 (ix4 b h s j) = ix4 b s h j :=
  funext fun a => by match a with | ⟨0, _⟩ => rfl | ⟨1, _⟩ => rfl | ⟨2, _⟩ => rfl | ⟨3, _⟩ => rfl

theorem v2_eq (x : Sx.Idx → EReal) (W : Sw.Idx → EReal) (b : Fin 4) (h : Fin 16) (s : Fin 2048) (j : Fin 64) :
    val_main_v2 (F := Ideal) x W (ix4 b h s j) = proj x W b s (col h j) := by
  rw [val_main_v2_apply, idx_v2, val_main_v1_apply, idx_v1, v0_eq]

theorem v5_eq (x : Sx.Idx → EReal) (W : Sw.Idx → EReal) (b : Fin 4) (h : Fin 16) (s : Fin 2048) (j : Fin 64) :
    val_main_v5 (F := Ideal) x W (ix4 b h s j) = proj x W b s (col h j) := v2_eq x W b h s j

theorem v8_eq (x : Sx.Idx → EReal) (W : Sw.Idx → EReal) (b : Fin 4) (h : Fin 16) (s : Fin 2048) (j : Fin 64) :
    val_main_v8 (F := Ideal) x W (ix4 b h s j) = proj x W b s (col h j) := v2_eq x W b h s j

/-! ## The score and the un-normalised weight (operations 9–15) -/

theorem lidx_v9 (b : Fin 4) (h : Fin 16) (s k : Fin 2048) (j : Fin 64) :
    lidx_main_v9 (ix4 b h s k) j = ix4 b h s j :=
  funext fun a => by match a with | ⟨0, _⟩ => rfl | ⟨1, _⟩ => rfl | ⟨2, _⟩ => rfl | ⟨3, _⟩ => rfl

theorem ridx_v9 (b : Fin 4) (h : Fin 16) (s k : Fin 2048) (j : Fin 64) :
    ridx_main_v9 (ix4 b h s k) j = ix4 b h k j :=
  funext fun a => by match a with | ⟨0, _⟩ => rfl | ⟨1, _⟩ => rfl | ⟨2, _⟩ => rfl | ⟨3, _⟩ => rfl

/-- The query row against the key row within one head: the contraction runs over the 64 lanes. -/
theorem v9_eq (x : Sx.Idx → EReal) (Wq Wk : Sw.Idx → EReal) (b : Fin 4) (h : Fin 16) (s k : Fin 2048) :
    val_main_v9 (F := Ideal) x Wq Wk (ix4 b h s k) = qk x Wq Wk b h s k := by
  rw [val_main_v9_apply]
  exact Finset.sum_congr rfl fun j _ => by rw [lidx_v9, ridx_v9, v2_eq, v5_eq]

/-- The mask is read at (query position, key position) whatever the batch and the head. -/
theorem idx_v13 (b : Fin 4) (h : Fin 16) (s k : Fin 2048) :
    idx_main_v12 (idx_main_v13 (ix4 b h s k)) = ix2 s k :=
  funext fun a => by match a with | ⟨0, _⟩ => rfl | ⟨1, _⟩ => rfl

theorem v13_eq (mask : Sm.Idx → EReal) (b : Fin 4) (h : Fin 16) (s k : Fin 2048) :
    val_main_v13 (F := Ideal) mask (ix4 b h s k) = mask (ix2 s k) := by
  rw [val_main_v13_apply, val_main_v12_apply, idx_v13]

/-- The scale is a quotient by the pattern of 8. -/
theorem v10_eq (i : S4x16x2048x2048.Idx) : val_main_v10 (F := Ideal) i = eight := by
  rw [val_main_v10_apply, val_main_cst_apply]; rfl

theorem v15_eq (x : Sx.Idx → EReal) (mask : Sm.Idx → EReal) (Wq Wk : Sw.Idx → EReal)
    (b : Fin 4) (h : Fin 16) (s k : Fin 2048) :
    val_main_v15 (F := Ideal) x mask Wq Wk (ix4 b h s k) = wR x mask Wq Wk b h s k := by
  rw [val_main_v15_apply, val_main_v14_apply, val_main_v11_apply, v9_eq, v10_eq, v13_eq]
  rfl

/-! ## The denominator (operations 16–20) and the normalised weight (operation 21) -/

theorem idx_v16 (b : Fin 4) (h : Fin 16) (s k : Fin 2048) :
    idx_main_v16 (ix3 b h s) k = ix4 b h s k :=
  funext fun a => by match a with | ⟨0, _⟩ => rfl | ⟨1, _⟩ => rfl | ⟨2, _⟩ => rfl | ⟨3, _⟩ => rfl

/-- The sum of the weights over the keys; the sum's initial value is the zero pattern. -/
theorem v16_eq (x : Sx.Idx → EReal) (mask : Sm.Idx → EReal) (Wq Wk : Sw.Idx → EReal)
    (b : Fin 4) (h : Fin 16) (s : Fin 2048) :
    val_main_v16 (F := Ideal) x mask Wq Wk (ix3 b h s) = ∑ k : Fin 2048, wR x mask Wq Wk b h s k := by
  rw [val_main_v16_apply, val_main_cst_0_apply, Ideal.ofBits_def, Ideal.ofBits_zero_f32, zero_add]
  exact Finset.sum_congr rfl fun k _ => by rw [idx_v16, v15_eq]

theorem idx_v20 (b : Fin 4) (h : Fin 16) (s k : Fin 2048) :
    idx_main_v17 (idx_main_v20 (ix4 b h s k)) = ix3 b h s :=
  funext fun a => by match a with | ⟨0, _⟩ => rfl | ⟨1, _⟩ => rfl | ⟨2, _⟩ => rfl

theorem v18_eq (i : S4x16x2048x1.Idx) : val_main_v18 (F := Ideal) i = eps := by
  rw [val_main_v18_apply, val_main_cst_1_apply]; rfl

/-- The denominator is the same for every key: the sum of the weights plus ε. -/
theorem v20_eq (x : Sx.Idx → EReal) (mask : Sm.Idx → EReal) (Wq Wk : Sw.Idx → EReal)
    (b : Fin 4) (h : Fin 16) (s k : Fin 2048) :
    val_main_v20 (F := Ideal) x mask Wq Wk (ix4 b h s k) = (∑ k' : Fin 2048, wR x mask Wq Wk b h s k') + eps := by
  rw [val_main_v20_apply, val_main_v19_apply, val_main_v17_apply, idx_v20, v16_eq, v18_eq]
  rfl

theorem v21_eq (x : Sx.Idx → EReal) (mask : Sm.Idx → EReal) (Wq Wk : Sw.Idx → EReal)
    (b : Fin 4) (h : Fin 16) (s k : Fin 2048) :
    val_main_v21 (F := Ideal) x mask Wq Wk (ix4 b h s k)
      = Ideal.div (wR x mask Wq Wk b h s k) ((∑ k' : Fin 2048, wR x mask Wq Wk b h s k') + eps) := by
  rw [val_main_v21_apply, v15_eq, v20_eq]
  rfl

/-! ## One head's output (operation 22), the heads concatenated (operations 23–24) and the output map (operation 25) -/

theorem lidx_v22 (b : Fin 4) (h : Fin 16) (s : Fin 2048) (j : Fin 64) (k : Fin 2048) :
    lidx_main_v22 (ix4 b h s j) k = ix4 b h s k :=
  funext fun a => by match a with | ⟨0, _⟩ => rfl | ⟨1, _⟩ => rfl | ⟨2, _⟩ => rfl | ⟨3, _⟩ => rfl

theorem ridx_v22 (b : Fin 4) (h : Fin 16) (s : Fin 2048) (j : Fin 64) (k : Fin 2048) :
    ridx_main_v22 (ix4 b h s j) k = ix4 b h k j :=
  funext fun a => by match a with | ⟨0, _⟩ => rfl | ⟨1, _⟩ => rfl | ⟨2, _⟩ => rfl | ⟨3, _⟩ => rfl

/-- The normalised weights against the value rows: the contraction runs over the 2048 keys. -/
theorem v22_eq (x : Sx.Idx → EReal) (mask : Sm.Idx → EReal) (Wq Wk Wv : Sw.Idx → EReal)
    (b : Fin 4) (h : Fin 16) (s : Fin 2048) (j : Fin 64) :
    val_main_v22 (F := Ideal) x mask Wq Wk Wv (ix4 b h s j) = headR x mask Wq Wk Wv b h s j := by
  rw [val_main_v22_apply]
  exact Finset.sum_congr rfl fun k _ => by rw [lidx_v22, ridx_v22, v21_eq, v8_eq]

/-- Feature d of the concatenated row is lane d mod 64 of head d / 64. -/
theorem idx_v24 (b : Fin 4) (s : Fin 2048) (d : Fin 1024) :
    idx_main_v23 (idx_main_v24 (ix3 b s d)) = ix4 b (headOf d) s (laneOf d) :=
  funext fun a => by
    have hb := b.isLt; have hs := s.isLt; have hd := d.isLt
    match a with
    | ⟨0, _⟩ => exact Fin.ext (by show ((b.val * 2048 + s.val) * 1024 + d.val) / 2097152 = b.val; omega)
    | ⟨1, _⟩ => exact Fin.ext (by show ((b.val * 2048 + s.val) * 1024 + d.val) / 64 % 16 = d.val / 64; omega)
    | ⟨2, _⟩ => exact Fin.ext (by show ((b.val * 2048 + s.val) * 1024 + d.val) / 1024 % 2048 = s.val; omega)
    | ⟨3, _⟩ => exact Fin.ext (by show ((b.val * 2048 + s.val) * 1024 + d.val) % 64 = d.val % 64; omega)

theorem v24_eq (x : Sx.Idx → EReal) (mask : Sm.Idx → EReal) (Wq Wk Wv : Sw.Idx → EReal)
    (b : Fin 4) (s : Fin 2048) (d : Fin 1024) :
    val_main_v24 (F := Ideal) x mask Wq Wk Wv (ix3 b s d) = headR x mask Wq Wk Wv b (headOf d) s (laneOf d) := by
  rw [val_main_v24_apply, val_main_v23_apply, idx_v24, v22_eq]

theorem lidx_v25 (b : Fin 4) (s : Fin 2048) (e d : Fin 1024) : lidx_main_v25 (ix3 b s e) d = ix3 b s d :=
  funext fun a => by match a with | ⟨0, _⟩ => rfl | ⟨1, _⟩ => rfl | ⟨2, _⟩ => rfl

theorem ridx_v25 (b : Fin 4) (s : Fin 2048) (e d : Fin 1024) : ridx_main_v25 (ix3 b s e) d = ix2 e d :=
  funext fun a => by match a with | ⟨0, _⟩ => rfl | ⟨1, _⟩ => rfl

/-- The reference's result is the specification that normalises every weight before the sum over the keys. -/
theorem ref_eq (x0 : Sx.Idx → EReal) (x1 : Sm.Idx → EReal) (x2 x3 x4 x5 : Sw.Idx → EReal) :
    val_main_v25 (F := Ideal) x0 x1 x2 x3 x4 x5 = GR x0 x1 x2 x3 x4 x5 := by
  funext i
  obtain ⟨b, s, e, rfl⟩ : ∃ (b : Fin 4) (s : Fin 2048) (e : Fin 1024), i = ix3 b s e := ⟨i 0, i 1, i 2, eq_ix3 i⟩
  show _ = ∑ d : Fin 1024, headR x0 x1 x2 x3 x4 b (headOf d) s (laneOf d) * x5 (ix2 e d)
  rw [val_main_v25_apply]
  exact Finset.sum_congr rfl fun d _ => by rw [lidx_v25, ridx_v25, v24_eq]

end Cert.Attn.Ref

end
-- ==== Proof.Law.lean ====
/-
  The two forms of attention of Spec.lean agree when x, the mask and the query, key and value weights
  hold real numbers.

  The mathematics, in the order of the file:
  * a finite sum of (coerced) reals is the (coerced) real sum, so a linear map of real rows and a
    score of real rows are real;
  * the pattern of 8 denotes the real 8 and the pattern of 2⁻³ the real 1/8, and a quotient by a
    nonzero real is the product with its reciprocal, at every extended real: the two scales agree,
    so the two un-normalised weights agree;
  * a weight is the exponential of a real, a positive real; ε is a positive real; so the
    denominator (the sum of the weights plus ε) is a positive real, in particular not zero;
  * over ℝ, (∑ w·v) · D⁻¹ = ∑ (w · D⁻¹) · v; transported through the coercion it says that
    normalising after the sum and normalising every weight before it agree.
-/
import proofs.«119781_j18451179504495_1_alg».proof.Proof.Spec

noncomputable section

namespace Cert.Attn.Law

open Idealize.ShloMosaic Idealize.ShloMosaic.ValueIdx

/-! ### Finite sums of reals inside the extended reals -/

/-- The coercion ℝ → EReal commutes with a finite sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of products of reals is a real. -/
theorem sum_mul_real {ι : Type} (s : Finset ι) (f g : ι → EReal)
    (hf : ∀ i, ∃ r : ℝ, f i = (r : EReal)) (hg : ∀ i, ∃ r : ℝ, g i = (r : EReal)) :
    ∃ r : ℝ, (∑ i ∈ s, f i * g i) = (r : EReal) := by
  choose fr hfr using hf
  choose gr hgr using hg
  refine ⟨∑ i ∈ s, fr i * gr i, ?_⟩
  rw [← coe_sum]
  exact Finset.sum_congr rfl (fun i _ => by rw [hfr, hgr, EReal.coe_mul])

/-! ### The real-number law -/

/-- Over ℝ: dividing the weighted sum by D is summing with every weight divided by D. -/
theorem real_law {ι : Type} (s : Finset ι) (w v : ι → ℝ) (D : ℝ) :
    (∑ k ∈ s, w k * v k) * (1 / D) = ∑ k ∈ s, w k * (1 / D) * v k := by
  rw [Finset.sum_mul]
  exact Finset.sum_congr rfl (fun k _ => by ring)

/-- The same inside the extended reals, with the denominator the sum of positive weights plus a
    positive ε, and the quotient `Ideal.div` (which has a corner at zero: the denominator avoids it). -/
theorem norm_law {ι : Type} (s : Finset ι) (w v : ι → ℝ) (e : ℝ) (hw : ∀ k, 0 < w k) (he : 0 < e) :
    Ideal.div (∑ k ∈ s, (w k : EReal) * (v k : EReal)) ((∑ k ∈ s, (w k : EReal)) + (e : EReal))
      = ∑ k ∈ s, Ideal.div (w k : EReal) ((∑ k' ∈ s, (w k' : EReal)) + (e : EReal)) * (v k : EReal) := by
  have hD : 0 < (∑ k ∈ s, w k) + e :=
    add_pos_of_nonneg_of_pos (Finset.sum_nonneg (fun k _ => (hw k).le)) he
  have hden : (∑ k ∈ s, (w k : EReal)) + (e : EReal) = (((∑ k ∈ s, w k) + e : ℝ) : EReal) := by
    rw [coe_sum, EReal.coe_add]
  rw [hden]
  simp only [Ideal.div_coe hD.ne']
  have h1 : (∑ k ∈ s, (w k : EReal) * (v k : EReal)) = ((∑ k ∈ s, w k * v k : ℝ) : EReal) := by
    rw [← coe_sum]; exact Finset.sum_congr rfl (fun k _ => by rw [EReal.coe_mul])
  have h2 : (∑ k ∈ s, (w k : EReal) * ((1 / ((∑ k ∈ s, w k) + e) : ℝ) : EReal) * (v k : EReal))
      = ((∑ k ∈ s, w k * (1 / ((∑ k ∈ s, w k) + e)) * v k : ℝ) : EReal) := by
    rw [← coe_sum]; exact Finset.sum_congr rfl (fun k _ => by rw [EReal.coe_mul, EReal.coe_mul])
  rw [h1, h2, ← EReal.coe_mul, real_law]

/-! ### The three constants -/

/-- The pattern 0x41000000 denotes the real 8. -/
theorem eight_eq : eight = ((8 : ℝ) : EReal) := by
  unfold eight
  simp [Ideal.ofBits, Ideal.ieee, -EReal.coe_mul]; norm_num

/-- The pattern 0x3E000000 denotes the real 1/8. -/
theorem eighth_eq : eighth = ((1 / 8 : ℝ) : EReal) := by
  unfold eighth
  simp [Ideal.ofBits, Ideal.ieee, -EReal.coe_mul]; norm_num

/-- The pattern 0x2EDBE6FF denotes a positive real. -/
theorem eps_pos : ∃ e : ℝ, 0 < e ∧ eps = (e : EReal) := by
  unfold eps
  simp [Ideal.ofBits, Ideal.ieee, -EReal.coe_mul]

/-- A quotient by the pattern of 8 is the product with the pattern of 2⁻³, at every extended real. -/
theorem div_eight (q : EReal) : Ideal.div q eight = q * eighth := by
  rw [eight_eq, eighth_eq, Ideal.div_coe (by norm_num : (8 : ℝ) ≠ 0)]

/-! ### The pieces of attention on real arguments -/

section Pieces

variable (x : Sx.Idx → EReal) (mask : Sm.Idx → EReal) (Wq Wk Wv Wo : Sw.Idx → EReal)

/-- The two un-normalised weights are one function (no hypothesis: the two scales agree everywhere). -/
theorem wK_eq_wR (b : Fin 4) (h : Fin 16) (s k : Fin 2048) :
    wK x mask Wq Wk b h s k = wR x mask Wq Wk b h s k := by
  unfold wK wR
  rw [div_eight]

/-- A linear map of a real row against a real weight row is real. -/
theorem proj_real (W : Sw.Idx → EReal) (hx : ∀ i, ∃ r : ℝ, x i = (r : EReal))
    (hW : ∀ i, ∃ r : ℝ, W i = (r : EReal)) (b : Fin 4) (s : Fin 2048) (e : Fin 1024) :
    ∃ r : ℝ, proj x W b s e = (r : EReal) :=
  sum_mul_real Finset.univ (fun d => x (ix3 b s d)) (fun d => W (ix2 e d)) (fun d => hx _) (fun d => hW _)

/-- The score of real rows is real. -/
theorem qk_real (hx : ∀ i, ∃ r : ℝ, x i = (r : EReal)) (hq : ∀ i, ∃ r : ℝ, Wq i = (r : EReal))
    (hk : ∀ i, ∃ r : ℝ, Wk i = (r : EReal)) (b : Fin 4) (h : Fin 16) (s k : Fin 2048) :
    ∃ r : ℝ, qk x Wq Wk b h s k = (r : EReal) :=
  sum_mul_real Finset.univ (fun j => proj x Wq b s (col h j)) (fun j => proj x Wk b k (col h j))
    (fun j => proj_real x Wq hx hq b s _) (fun j => proj_real x Wk hx hk b k _)

/-- A weight on real arguments is a positive real: the exponential of a real. -/
theorem wR_pos_real (hx : ∀ i, ∃ r : ℝ, x i = (r : EReal)) (hm : ∀ i, ∃ r : ℝ, mask i = (r : EReal))
    (hq : ∀ i, ∃ r : ℝ, Wq i = (r : EReal)) (hk : ∀ i, ∃ r : ℝ, Wk i = (r : EReal))
    (b : Fin 4) (h : Fin 16) (s k : Fin 2048) :
    ∃ r : ℝ, 0 < r ∧ wR x mask Wq Wk b h s k = (r : EReal) := by
  obtain ⟨q, hq'⟩ := qk_real x Wq Wk hx hq hk b h s k
  obtain ⟨m, hm'⟩ := hm (ix2 s k)
  refine ⟨Real.exp (q * (1 / 8) + m), Real.exp_pos _, ?_⟩
  rw [← wK_eq_wR]
  unfold wK
  rw [hq', hm', eighth_eq, ← EReal.coe_mul, ← EReal.coe_add, Ideal.exp_coe]

/-- One head: normalising after the sum over keys, or every weight before it, is the same. -/
theorem headK_eq_headR (hx : ∀ i, ∃ r : ℝ, x i = (r : EReal)) (hm : ∀ i, ∃ r : ℝ, mask i = (r : EReal))
    (hq : ∀ i, ∃ r : ℝ, Wq i = (r : EReal)) (hk : ∀ i, ∃ r : ℝ, Wk i = (r : EReal))
    (hv : ∀ i, ∃ r : ℝ, Wv i = (r : EReal)) (b : Fin 4) (h : Fin 16) (s : Fin 2048) (j : Fin 64) :
    headK x mask Wq Wk Wv b h s j = headR x mask Wq Wk Wv b h s j := by
  choose w hw0 hw using fun k => wR_pos_real x mask Wq Wk hx hm hq hk b h s k
  choose v hv' using fun k => proj_real x Wv hx hv b k (col h j)
  obtain ⟨e, he, hee⟩ := eps_pos
  unfold headK headR
  simp only [wK_eq_wR, hw, hv', hee]
  exact norm_law Finset.univ w v e hw0 he

end Pieces

/-! ### The two forms of attention agree -/

theorem GK_eq_GR (x : Sx.Idx → EReal) (mask : Sm.Idx → EReal) (Wq Wk Wv Wo : Sw.Idx → EReal)
    (hx : ∀ i, ∃ r : ℝ, x i = (r : EReal)) (hm : ∀ i, ∃ r : ℝ, mask i = (r : EReal))
    (hq : ∀ i, ∃ r : ℝ, Wq i = (r : EReal)) (hk : ∀ i, ∃ r : ℝ, Wk i = (r : EReal))
    (hv : ∀ i, ∃ r : ℝ, Wv i = (r : EReal)) :
    Cert.Attn.GK x mask Wq Wk Wv Wo = Cert.Attn.GR x mask Wq Wk Wv Wo := by
  funext i
  unfold GK GR
  exact Finset.sum_congr rfl (fun d _ =>
    congrArg (fun t => t * Wo (ix2 (i 2) d))
      (headK_eq_headR x mask Wq Wk Wv hx hm hq hk hv (i 0) (headOf d) (i 1) (laneOf d)))

end Cert.Attn.Law

end
-- ==== Proof.Finite.lean ====
/-
  The precondition `finite_inputs` read back: if the printed predicate holds (its one result is 1), then every entry
  of x, of the mask and of the query, key and value weights is a real number.

  The predicate is six tests "|a| < +∞ at every index" joined by `and`. A test at every index is a reduction by
  `and` over all axes, which is 1 only if every element is 1; an element says max a (-a) < ⊤ in the extended reals,
  which fails at ⊥ and at ⊤, so a is (the coercion of) a real.
-/
import proofs.«119781_j18451179504495_1_alg».proof.Pre_finite_inputs
import proofs.«119781_j18451179504495_1_alg».proof.Proof.Gen.Pre_finite_inputs
import Idealize.ShloMosaic.Lib.ReduceAll
import proofs.«119781_j18451179504495_1_alg».proof.Proof.Spec

noncomputable section

namespace Cert.Attn.Finite

open Idealize.ShloMosaic Idealize.ShloMosaic.ValueIdx Cert.Pre_finite_inputs

/-- The scalar shape has one index. -/
instance : Subsingleton S_.Idx := ⟨fun a b => funext fun d => d.elim0⟩

/-- The pattern 0x7F800000 denotes +∞. -/
theorem inf_eq : Ideal.ofBits .f32 0x7F800000#32 = (⊤ : EReal) := by
  simp [Ideal.ofBits, Ideal.ieee]

/-- An extended real whose absolute value is below +∞ is a real. -/
theorem real_of_abs_lt_top (a : EReal) (h : max a (-a) < ⊤) : ∃ r : ℝ, a = (r : EReal) := by
  induction a using EReal.rec with
  | bot => simp at h
  | coe r => exact ⟨r, rfl⟩
  | top => simp at h

/-- One test of the predicate at one index: the comparison of |a| with a vector that is +∞ everywhere. -/
theorem real_of_cmp {s : Shape} (a c : FVec Ideal s .f32) (hc : ∀ i, c i = (⊤ : EReal)) (i : s.Idx)
    (h : cmpf .olt (Host.absf a) c i = 1#1) : ∃ r : ℝ, a i = (r : EReal) := by
  refine real_of_abs_lt_top (a i) ?_
  have h' : Ideal.cmp .olt (max (a i) (-(a i))) (c i) = 1#1 := h
  rw [hc i] at h'
  by_contra hn
  simp [Ideal.cmp, hn] at h'

/-- One whole test: a reduction by `and` over all axes of the comparison of |a| with the broadcast +∞ that is 1
    makes every entry of a a real. -/
theorem real_of_all {s : Shape} {axes : List (Fin s.rank)} (a : FVec Ideal s .f32) (c : FVec Ideal s .f32)
    (hc : ∀ i, c i = (⊤ : EReal)) (init : IVec S_ 1) (hr : s.ReducesTo axes S_) (hu : 0 < S_.numel)
    (e : Host.reduce IntOp.andi (cmpf .olt (Host.absf a) c) init hr hu ix0 = 1#1) (i : s.Idx) :
    ∃ r : ℝ, a i = (r : EReal) :=
  real_of_cmp a c hc i (Host.reduce_andi_all _ init hr hu ix0 e i)

/-- A conjunction of two one-bit scalars that is 1 has both 1. -/
theorem and_split (p q : IVec S_ 1) (h : andi p q ix0 = 1#1) : p ix0 = 1#1 ∧ q ix0 = 1#1 :=
  IntOp.andi_eq_one.1 h

/-- The broadcast of the constant scalar +∞ is +∞ at every index. -/
theorem bcast_inf {t : Shape} (hb : S_.BroadcastsInDim t (![] : Fin 0 → Fin t.rank)) (i : t.Idx) :
    broadcastInDim t ![] hb (constant (F := Ideal) S_ .f32 0x7F800000#32) i = (⊤ : EReal) :=
  inf_eq

theorem reals_of_pre [Cert.Pre_finite_inputs.Facts] (a0 : Sx.Idx → EReal) (a1 : Sm.Idx → EReal) (a2 a3 a4 a5 : Sw.Idx → EReal)
    (h : Cert.Pre_finite_inputs.fn (F := Ideal) a0 a1 a2 a3 a4 a5 = (fun _ => 1#1)) :
    (∀ i, ∃ r : ℝ, a0 i = (r : EReal)) ∧ (∀ i, ∃ r : ℝ, a1 i = r) ∧ (∀ i, ∃ r : ℝ, a2 i = r) ∧ (∀ i, ∃ r : ℝ, a3 i = r) ∧ (∀ i, ∃ r : ℝ, a4 i = r) := by
  have h0 := congrFun h ix0
  dsimp only [fn, fn_part1] at h0
  obtain ⟨h0, -⟩ := and_split _ _ h0
  obtain ⟨h0, e4⟩ := and_split _ _ h0
  obtain ⟨h0, e3⟩ := and_split _ _ h0
  obtain ⟨h0, e2⟩ := and_split _ _ h0
  obtain ⟨e0, e1⟩ := and_split _ _ h0
  exact ⟨real_of_all a0 _ (bcast_inf _) _ _ _ e0, real_of_all a1 _ (bcast_inf _) _ _ _ e1,
    real_of_all a2 _ (bcast_inf _) _ _ _ e2, real_of_all a3 _ (bcast_inf _) _ _ _ e3,
    real_of_all a4 _ (bcast_inf _) _ _ _ e4⟩

end Cert.Attn.Finite

end
-- ==== Proof.Algebraic.lean ====
/-
  The two idealized programs, run from memories that agree on the six arguments, end with equal results.
  The kernel's result buffer ends at `GK` of its launch arrays (the run of its five regions, read back), the reference's at
  `GR` of its own (its run, read one operation at a time); the arguments agree, and under the precondition every entry of
  x, of the mask and of the query, key and value weights is a real number, where the two forms of attention coincide:
  a quotient by 8 is a product with 2⁻³, and dividing a finite sum of reals by a positive real is dividing its terms.
-/
import proofs.«119781_j18451179504495_1_alg».proof.Defs
import proofs.«119781_j18451179504495_1_alg».proof.Proof.KernelRun
import proofs.«119781_j18451179504495_1_alg».proof.Proof.KernelIsSpec
import proofs.«119781_j18451179504495_1_alg».proof.Proof.RefIsSpec
import proofs.«119781_j18451179504495_1_alg».proof.Proof.Law
import proofs.«119781_j18451179504495_1_alg».proof.Proof.Finite
import proofs.«119781_j18451179504495_1_alg».proof.Proof.Gen.ReferenceIdeal.Run
import proofs.«119781_j18451179504495_1_alg».proof.Proof.Gen.ReferenceIdeal.Read
import proofs.«119781_j18451179504495_1_alg».proof.Proof.Gen.KernelIdeal
import proofs.«119781_j18451179504495_1_alg».proof.Proof.Gen.ReferenceIdeal
import proofs.«119781_j18451179504495_1_alg».proof.Proof.Gen.Pre_finite_inputs

noncomputable section

namespace Cert.Proof.Claims

open Idealize.ShloMosaic Idealize.ShloMosaic.TcCoe Idealize.SL.Sem

theorem algebraic : Cert.algebraic_KernelIdeal_ReferenceIdeal := by
  intro m ρ m' ρ' hpre hagree
  refine ⟨fun c => Cert.Attn.GK (Cert.KernelIdeal.Hand.ax m c) (Cert.KernelIdeal.Hand.amask m c) (Cert.KernelIdeal.Hand.aq m c)
    (Cert.KernelIdeal.Hand.ak m c) (Cert.KernelIdeal.Hand.av m c) (Cert.KernelIdeal.Hand.ao m c), ?_, ?_⟩
  · exact (θ_run Cert.KernelIdeal.defs _ _).mono
      (fun r h c => ⟨(h c).1.trans (Cert.KernelIdeal.Hand.result_eq m ρ c), (h c).2⟩)
      (Cert.KernelIdeal.Hand.run_result m ρ)
  · refine (θ_run Cert.ReferenceIdeal.defs _ _).mono (fun r h c => ⟨?_, (h c).2⟩)
      (Cert.ReferenceIdeal.Value.run (F := Ideal) m' ρ')
    obtain ⟨hx, hm, hq, hk, hv⟩ := Cert.Attn.Finite.reals_of_pre _ _ _ _ _ _ (hpre c)
    rw [(h c).1, Cert.ReferenceIdeal.Read.val_main_v25_eq, Cert.Attn.Ref.ref_eq, (hagree c).1, (hagree c).2.1,
      (hagree c).2.2.1, (hagree c).2.2.2.1, (hagree c).2.2.2.2.1, (hagree c).2.2.2.2.2]
    exact (Cert.Attn.Law.GK_eq_GR _ _ _ _ _ _ hx hm hq hk hv).symm

end Cert.Proof.Claims

end
-- ==== Proof.lean ====
/-
  Multi-head attention (batch 4, 2048 positions, 1024 features, 16 heads of 64 lanes, an additive mask, a softmax without
  the running maximum and with ε in its denominator) as a kernel of five pipelined regions — three projections, the
  attention core, the output projection — against its jnp reference.

  The three programs run: the two kernels by their frames over the nine segments of @main, the reference by its run with
  the result dropped. The idealization rewrote nothing, so it preserves trivially. The two idealized programs end with
  equal results (Proof/Algebraic.lean): the kernel divides the weighted sum of value rows by the softmax denominator and
  scales the scores by 2⁻³, the reference divides every weight first and scales by a quotient by 8; on the real numbers
  the precondition gives, the two are one function.
-/
import proofs.«119781_j18451179504495_1_alg».proof.Defs
import proofs.«119781_j18451179504495_1_alg».proof.Proof.Gen.Kernel
import proofs.«119781_j18451179504495_1_alg».proof.Proof.Gen.Kernel.Skeleton
import proofs.«119781_j18451179504495_1_alg».proof.Proof.Gen.Kernel.Launch
import proofs.«119781_j18451179504495_1_alg».proof.Proof.Gen.Kernel.Points
import proofs.«119781_j18451179504495_1_alg».proof.Proof.Gen.Kernel.Frame
import proofs.«119781_j18451179504495_1_alg».proof.Proof.Gen.KernelIdeal
import proofs.«119781_j18451179504495_1_alg».proof.Proof.Gen.KernelIdeal.Skeleton
import proofs.«119781_j18451179504495_1_alg».proof.Proof.Gen.KernelIdeal.Launch
import proofs.«119781_j18451179504495_1_alg».proof.Proof.Gen.KernelIdeal.Points
import proofs.«119781_j18451179504495_1_alg».proof.Proof.Gen.KernelIdeal.Frame
import proofs.«119781_j18451179504495_1_alg».proof.Proof.Gen.ReferenceIdeal
import proofs.«119781_j18451179504495_1_alg».proof.Proof.Gen.Pre_finite_inputs
import proofs.«119781_j18451179504495_1_alg».proof.Proof.Gen.ReferenceIdeal.Run
import proofs.«119781_j18451179504495_1_alg».proof.Proof.Gen.ReferenceIdeal.Read
import proofs.«119781_j18451179504495_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Claims.algebraic⟩

end Cert.Proof

end
